-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x384x1280 : Shape := ⟨4, ![16, 1, 384, 1280]⟩
abbrev S16x4x4 : Shape := ⟨3, ![16, 4, 4]⟩
abbrev S16x3x491520 : Shape := ⟨3, ![16, 3, 491520]⟩
abbrev S16x131072 : Shape := ⟨2, ![16, 131072]⟩
abbrev S_ : Shape := ⟨0, ![]⟩

class Facts : Prop where
  bcast_S_S16x1x384x1280 : S_.BroadcastsInDim S16x1x384x1280 (![] : Fin 0 → Fin S16x1x384x1280.rank)
  reducesTo_S16x1x384x1280_S_d0_1_2_3 : S16x1x384x1280.ReducesTo [0, 1, 2, 3] S_
  h_S_ : 0 < S_.numel
  bcast_S_S16x4x4 : S_.BroadcastsInDim S16x4x4 (![] : Fin 0 → Fin S16x4x4.rank)
  reducesTo_S16x4x4_S_d0_1_2 : S16x4x4.ReducesTo [0, 1, 2] S_
  bcast_S_S16x3x491520 : S_.BroadcastsInDim S16x3x491520 (![] : Fin 0 → Fin S16x3x491520.rank)
  reducesTo_S16x3x491520_S_d0_1_2 : S16x3x491520.ReducesTo [0, 1, 2] S_

variable [Facts]

def fn {F : FTy → Type} [FloatOps F] (main_arg0 : FVec F S16x1x384x1280 .f32) (main_arg1 : FVec F S16x4x4 .f32) (main_arg2 : FVec F S16x3x491520 .f32) (main_arg3 : IVec S16x131072 32) : IVec S_ 1 :=
  let main_v0 : FVec F S16x1x384x1280 .f32 := Host.absf main_arg0
  let main_cst : FVec F S_ .f32 := constant S_ .f32 0x7F800000#32
  let main_v1 : FVec F S16x1x384x1280 .f32 := broadcastInDim S16x1x384x1280 ![] bcast_S_S16x1x384x1280 main_cst
  let main_v2 : IVec S16x1x384x1280 1 := cmpf .olt main_v0 main_v1
  let main_c : IVec S_ 1 := constantI S_ 1 1#1
  let main_v3 : IVec S_ 1 := (fun x v => Host.reduce IntOp.andi x v reducesTo_S16x1x384x1280_S_d0_1_2_3 h_S_) main_v2 main_c
  let main_v4 : FVec F S16x4x4 .f32 := Host.absf main_arg1
  let main_cst_0 : FVec F S_ .f32 := constant S_ .f32 0x7F800000#32
  let main_v5 : FVec F S16x4x4 .f32 := broadcastInDim S16x4x4 ![] bcast_S_S16x4x4 main_cst_0
  let main_v6 : IVec S16x4x4 1 := cmpf .olt main_v4 main_v5
  let main_c_1 : IVec S_ 1 := constantI S_ 1 1#1
  let main_v7 : IVec S_ 1 := (fun x v => Host.reduce IntOp.andi x v reducesTo_S16x4x4_S_d0_1_2 h_S_) main_v6 main_c_1
  let main_v8 : IVec S_ 1 := andi main_v3 main_v7
  let main_v9 : FVec F S16x3x491520 .f32 := Host.absf main_arg2
  let main_cst_2 : FVec F S_ .f32 := constant S_ .f32 0x7F800000#32
  let main_v10 : FVec F S16x3x491520 .f32 := broadcastInDim S16x3x491520 ![] bcast_S_S16x3x491520 main_cst_2
  let main_v11 : IVec S16x3x491520 1 := cmpf .olt main_v9 main_v10
  let main_c_3 : IVec S_ 1 := constantI S_ 1 1#1
  let main_v12 : IVec S_ 1 := (fun x v => Host.reduce IntOp.andi x v reducesTo_S16x3x491520_S_d0_1_2 h_S_) main_v11 main_c_3
  let main_v13 : IVec S_ 1 := andi main_v8 main_v12
  main_v13
-- ==== Kernel.lean ====
abbrev S16x1x384x1280 : Shape := ⟨4, ![16, 1, 384, 1280]⟩
abbrev S16x4x4 : Shape := ⟨3, ![16, 4, 4]⟩
abbrev S16x3x491520 : Shape := ⟨3, ![16, 3, 491520]⟩
abbrev S16x131072 : Shape := ⟨2, ![16, 131072]⟩
abbrev S16x1x131072 : Shape := ⟨3, ![16, 1, 131072]⟩
abbrev S16x3x131072 : Shape := ⟨3, ![16, 3, 131072]⟩
abbrev S_ : Shape := ⟨0, ![]⟩
abbrev S16x3x131072x1 : Shape := ⟨4, ![16, 3, 131072, 1]⟩
abbrev S1 : Shape := ⟨1, ![1]⟩
abbrev S1x1x1x1 : Shape := ⟨4, ![1, 1, 1, 1]⟩
abbrev S16x1x491520 : Shape := ⟨3, ![16, 1, 491520]⟩
abbrev S16x131072x1 : Shape := ⟨3, ![16, 131072, 1]⟩
abbrev S1x1x1 : Shape := ⟨3, ![1, 1, 1]⟩
abbrev S16x3x128x1024 : Shape := ⟨4, ![16, 3, 128, 1024]⟩
abbrev S16x128x1024 : Shape := ⟨3, ![16, 128, 1024]⟩
abbrev S16x3x3 : Shape := ⟨3, ![16, 3, 3]⟩
abbrev S16x4x128x1024 : Shape := ⟨4, ![16, 4, 128, 1024]⟩
abbrev S1x3x3 : Shape := ⟨3, ![1, 3, 3]⟩
abbrev S1x3x128x1024 : Shape := ⟨4, ![1, 3, 128, 1024]⟩
abbrev S1x128x1024 : Shape := ⟨3, ![1, 128, 1024]⟩
abbrev S1x4x128x1024 : Shape := ⟨4, ![1, 4, 128, 1024]⟩
abbrev S3x3 : Shape := ⟨2, ![3, 3]⟩
abbrev S1x1 : Shape := ⟨2, ![1, 1]⟩
abbrev S3x128x1024 : Shape := ⟨3, ![3, 128, 1024]⟩
abbrev S128x1024 : Shape := ⟨2, ![128, 1024]⟩
abbrev S1x1x128x1024 : Shape := ⟨4, ![1, 1, 128, 1024]⟩
abbrev S16x4x131072 : Shape := ⟨3, ![16, 4, 131072]⟩

abbrev nBuf : Space → Nat
  | .hbm => 58
  | .vmem => 8
  | .smem => 0
  | _ => 0

abbrev bufTy : (tb : Table) → Fin (tcTables nBuf tb) → BufTy
  | .hbm, ⟨0, _⟩ => ⟨S16x1x384x1280, .f32⟩
  | .hbm, ⟨1, _⟩ => ⟨S16x4x4, .f32⟩
  | .hbm, ⟨2, _⟩ => ⟨S16x3x491520, .f32⟩
  | .hbm, ⟨3, _⟩ => ⟨S16x131072, .i32⟩
  | .hbm, ⟨4, _⟩ => ⟨S16x1x131072, .i32⟩
  | .hbm, ⟨5, _⟩ => ⟨S16x3x131072, .i32⟩
  | .hbm, ⟨6, _⟩ => ⟨S_, .i32⟩
  | .hbm, ⟨7, _⟩ => ⟨S16x3x131072, .i32⟩
  | .hbm, ⟨8, _⟩ => ⟨S16x3x131072, .i1⟩
  | .hbm, ⟨9, _⟩ => ⟨S_, .i32⟩
  | .hbm, ⟨10, _⟩ => ⟨S16x3x131072, .i32⟩
  | .hbm, ⟨11, _⟩ => ⟨S16x3x131072, .i32⟩
  | .hbm, ⟨12, _⟩ => ⟨S16x3x131072, .i32⟩
  | .hbm, ⟨13, _⟩ => ⟨S16x3x131072x1, .i32⟩
  | .hbm, ⟨14, _⟩ => ⟨S1, .i32⟩
  | .hbm, ⟨15, _⟩ => ⟨S_, .i32⟩
  | .hbm, ⟨16, _⟩ => ⟨S16x3x131072x1, .i32⟩
  | .hbm, ⟨17, _⟩ => ⟨S16x3x131072x1, .i1⟩
  | .hbm, ⟨18, _⟩ => ⟨S1x1x1x1, .i32⟩
  | .hbm, ⟨19, _⟩ => ⟨S16x3x131072x1, .i32⟩
  | .hbm, ⟨20, _⟩ => ⟨S16x3x131072x1, .i1⟩
  | .hbm, ⟨21, _⟩ => ⟨S16x3x131072x1, .i1⟩
  | .hbm, ⟨22, _⟩ => ⟨S_, .i1⟩
  | .hbm, ⟨23, _⟩ => ⟨S16x3x131072, .i1⟩
  | .hbm, ⟨24, _⟩ => ⟨S16x3x131072, .f32⟩
  | .hbm, ⟨25, _⟩ => ⟨S_, .f32⟩
  | .hbm, ⟨26, _⟩ => ⟨S16x3x131072, .f32⟩
  | .hbm, ⟨27, _⟩ => ⟨S16x3x131072, .f32⟩
  | .hbm, ⟨28, _⟩ => ⟨S16x1x491520, .f32⟩
  | .hbm, ⟨29, _⟩ => ⟨S_, .i32⟩
  | .hbm, ⟨30, _⟩ => ⟨S16x1x131072, .i32⟩
  | .hbm, ⟨31, _⟩ => ⟨S16x1x131072, .i1⟩
  | .hbm, ⟨32, _⟩ => ⟨S_, .i32⟩
  | .hbm, ⟨33, _⟩ => ⟨S16x1x131072, .i32⟩
  | .hbm, ⟨34, _⟩ => ⟨S16x1x131072, .i32⟩
  | .hbm, ⟨35, _⟩ => ⟨S16x1x131072, .i32⟩
  | .hbm, ⟨36, _⟩ => ⟨S16x131072x1, .i32⟩
  | .hbm, ⟨37, _⟩ => ⟨S1, .i32⟩
  | .hbm, ⟨38, _⟩ => ⟨S_, .i32⟩
  | .hbm, ⟨39, _⟩ => ⟨S16x131072x1, .i32⟩
  | .hbm, ⟨40, _⟩ => ⟨S16x131072x1, .i1⟩
  | .hbm, ⟨41, _⟩ => ⟨S1x1x1, .i32⟩
  | .hbm, ⟨42, _⟩ => ⟨S16x131072x1, .i32⟩
  | .hbm, ⟨43, _⟩ => ⟨S16x131072x1, .i1⟩
  | .hbm, ⟨44, _⟩ => ⟨S16x131072x1, .i1⟩
  | .hbm, ⟨45, _⟩ => ⟨S_, .i1⟩
  | .hbm, ⟨46, _⟩ => ⟨S16x131072, .i1⟩
  | .hbm, ⟨47, _⟩ => ⟨S16x1x131072, .f32⟩
  | .hbm, ⟨48, _⟩ => ⟨S16x1x131072, .i1⟩
  | .hbm, ⟨49, _⟩ => ⟨S_, .f32⟩
  | .hbm, ⟨50, _⟩ => ⟨S16x1x131072, .f32⟩
  | .hbm, ⟨51, _⟩ => ⟨S16x1x131072, .f32⟩
  | .hbm, ⟨52, _⟩ => ⟨S16x131072, .f32⟩
  | .hbm, ⟨53, _⟩ => ⟨S16x3x128x1024, .f32⟩
  | .hbm, ⟨54, _⟩ => ⟨S16x128x1024, .f32⟩
  | .hbm, ⟨55, _⟩ => ⟨S16x3x3, .f32⟩
  | .hbm, ⟨56, _⟩ => ⟨S16x4x128x1024, .f32⟩
  | .hbm, ⟨57, _⟩ => ⟨S16x4x131072, .f32⟩
  | .local _ .vmem, ⟨0, _⟩ => ⟨S1x3x3, .f32⟩
  | .local _ .vmem, ⟨1, _⟩ => ⟨S1x3x3, .f32⟩
  | .local _ .vmem, ⟨2, _⟩ => ⟨S1x3x128x1024, .f32⟩
  | .local _ .vmem, ⟨3, _⟩ => ⟨S1x3x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x4x128x1024, .f32⟩
  | .local _ .vmem, ⟨7, _⟩ => ⟨S1x4x128x1024, .f32⟩
  | _, _ => ⟨S16x1x384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16x131072_S16x1x131072_0_2 : S16x131072.BroadcastsInDim S16x1x131072 (![0, 2] : Fin 2 → Fin S16x1x131072.rank)
  bcast_S16x1x131072_S16x3x131072_0_1_2 : S16x1x131072.BroadcastsInDim S16x3x131072 (![0, 1, 2] : Fin 3 → Fin S16x3x131072.rank)
  bcast_S_S16x3x131072 : S_.BroadcastsInDim S16x3x131072 (![] : Fin 0 → Fin S16x3x131072.rank)
  shapeCasts_S16x3x131072_S16x3x131072x1 : S16x3x131072.ShapeCasts S16x3x131072x1
  bcast_S_S16x3x131072x1 : S_.BroadcastsInDim S16x3x131072x1 (![] : Fin 0 → Fin S16x3x131072x1.rank)
  bcast_S1_S1x1x1x1_3 : S1.BroadcastsInDim S1x1x1x1 (![3] : Fin 1 → Fin S1x1x1x1.rank)
  bcast_S1x1x1x1_S16x3x131072x1_0_1_2_3 : S1x1x1x1.BroadcastsInDim S16x3x131072x1 (![0, 1, 2, 3] : Fin 4 → Fin S16x3x131072x1.rank)
  reducesTo_S16x3x131072x1_S16x3x131072_d3 : S16x3x131072x1.ReducesTo [3] S16x3x131072
  h_S_ : 0 < S_.numel
  shapeCasts_S16x1x384x1280_S16x1x491520 : S16x1x384x1280.ShapeCasts S16x1x491520
  bcast_S_S16x1x131072 : S_.BroadcastsInDim S16x1x131072 (![] : Fin 0 → Fin S16x1x131072.rank)
  shapeCasts_S16x1x131072_S16x131072x1 : S16x1x131072.ShapeCasts S16x131072x1
  bcast_S_S16x131072x1 : S_.BroadcastsInDim S16x131072x1 (![] : Fin 0 → Fin S16x131072x1.rank)
  bcast_S1_S1x1x1_2 : S1.BroadcastsInDim S1x1x1 (![2] : Fin 1 → Fin S1x1x1.rank)
  bcast_S1x1x1_S16x131072x1_0_1_2 : S1x1x1.BroadcastsInDim S16x131072x1 (![0, 1, 2] : Fin 3 → Fin S16x131072x1.rank)
  reducesTo_S16x131072x1_S16x131072_d2 : S16x131072x1.ReducesTo [2] S16x131072
  shapeCasts_S16x1x131072_S16x131072 : S16x1x131072.ShapeCasts S16x131072
  shapeCasts_S16x3x131072_S16x3x128x1024 : S16x3x131072.ShapeCasts S16x3x128x1024
  shapeCasts_S16x131072_S16x128x1024 : S16x131072.ShapeCasts S16x128x1024
  slices_S16x4x4_S16x3x3_0_0_0 : S16x4x4.Slices ![0, 0, 0] S16x3x3
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S1x3x128x1024_S1x3x128x1024_0_0_0_0 : ∀ a, (![0, 0, 0, 0] : Fin 4 → Nat) a + S1x3x128x1024.size a ≤ S1x3x128x1024.size a
  h_S1x3x128x1024 : 0 < S1x3x128x1024.numel
  shapeCasts_S1x3x128x1024_S3x128x1024 : S1x3x128x1024.ShapeCasts S3x128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  slices_S3x128x1024_o0_0_0_S1x128x1024 : S3x128x1024.Slices ![0, 0, 0] S1x128x1024
  slices_S3x128x1024_o1_0_0_S1x128x1024 : S3x128x1024.Slices ![1, 0, 0] S1x128x1024
  slices_S3x128x1024_o2_0_0_S1x128x1024 : S3x128x1024.Slices ![2, 0, 0] S1x128x1024
  inb_S1x4x128x1024_S1x1x128x1024_0_0_0_0 : ∀ a, (![0, 0, 0, 0] : Fin 4 → Nat) a + S1x1x128x1024.size a ≤ S1x4x128x1024.size a
  h_S1x1x128x1024 : 0 < S1x1x128x1024.numel
  shapeCasts_S1x1x128x1024_S128x1024 : S1x1x128x1024.ShapeCasts S128x1024
  shapeCasts_S128x1024_S1x1x128x1024 : S128x1024.ShapeCasts S1x1x128x1024
  inb_S1x4x128x1024_S1x1x128x1024_0_1_0_0 : ∀ a, (![0, 1, 0, 0] : Fin 4 → Nat) a + S1x1x128x1024.size a ≤ S1x4x128x1024.size a
  inb_S1x4x128x1024_S1x1x128x1024_0_2_0_0 : ∀ a, (![0, 2, 0, 0] : Fin 4 → Nat) a + S1x1x128x1024.size a ≤ S1x4x128x1024.size a
  inb_S1x4x128x1024_S1x1x128x1024_0_3_0_0 : ∀ a, (![0, 3, 0, 0] : Fin 4 → Nat) a + S1x1x128x1024.size a ≤ S1x4x128x1024.size a
  shapeCasts_S16x4x128x1024_S16x4x131072 : S16x4x128x1024.ShapeCasts S16x4x131072
  gather_S16x3x491520_S16x3x131072x1_S16x3x131072_n_2_01_01_2_3_111_wf : GatherDims.WF S16x3x491520 S16x3x131072x1 S16x3x131072 [] [2] [0, 1] [2] [0, 1] 3 ![1, 1, 1]
  gather_S16x1x491520_S16x131072x1_S16x1x131072_1_2_0_0_2_2_111_wf : GatherDims.WF S16x1x491520 S16x131072x1 S16x1x131072 [1] [2] [0] [2] [0] 2 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x3.size a ≤ S16x3x3.size a
  hwx0_0 : ∀ i : grid0.Coords, EltTy.bits .f32 = 32 ∨ (Rect.block (s := S16x3x3) S1x3x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128x1024.size a ≤ S16x3x128x1024.size a
  hwx0_1 : ∀ i : grid0.Coords, EltTy.bits .f32 = 32 ∨ (Rect.block (s := S16x3x128x1024) S1x3x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S16x128x1024.size a
  hwx0_2 : ∀ i : grid0.Coords, EltTy.bits .f32 = 32 ∨ (Rect.block (s := S16x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128x1024.size a ≤ S16x4x128x1024.size a
  hwx0_3 : ∀ i : grid0.Coords, EltTy.bits .f32 = 32 ∨ (Rect.block (s := S16x4x128x1024) S1x4x128x1024.size (cc0_transform_3 i) (hinb0_3 i)).WholeWords (EltTy.packing .f32)

variable [Facts₀]

def gather_S16x3x491520_S16x3x131072x1_S16x3x131072_n_2_01_01_2_3_111 : GatherDims S16x3x491520 S16x3x131072x1 S16x3x131072 where
  offsetDims := []
  collapsedSliceDims := [2]
  operandBatchingDims := [0, 1]
  startIndicesBatchingDims := [0, 1]
  startIndexMap := [2]
  indexVectorDim := 3
  sliceSizes := ![1, 1, 1]
  wf := gather_S16x3x491520_S16x3x131072x1_S16x3x131072_n_2_01_01_2_3_111_wf
def gather_S16x1x491520_S16x131072x1_S16x1x131072_1_2_0_0_2_2_111 : GatherDims S16x1x491520 S16x131072x1 S16x1x131072 where
  offsetDims := [1]
  collapsedSliceDims := [2]
  operandBatchingDims := [0]
  startIndicesBatchingDims := [0]
  startIndexMap := [2]
  indexVectorDim := 2
  sliceSizes := ![1, 1, 1]
  wf := gather_S16x1x491520_S16x131072x1_S16x1x131072_1_2_0_0_2_2_111_wf

abbrev win0_0 : Pipeline.Window sig grid0 :=
  Pipeline.Window.ofSpec (Memref.whole main_v8) S1x3x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x3x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x4x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x384x1280 : Shape := ⟨4, ![16, 1, 384, 1280]⟩
abbrev S16x4x4 : Shape := ⟨3, ![16, 4, 4]⟩
abbrev S16x3x491520 : Shape := ⟨3, ![16, 3, 491520]⟩
abbrev S16x131072 : Shape := ⟨2, ![16, 131072]⟩
abbrev S16x1x131072 : Shape := ⟨3, ![16, 1, 131072]⟩
abbrev S16x3x131072 : Shape := ⟨3, ![16, 3, 131072]⟩
abbrev S_ : Shape := ⟨0, ![]⟩
abbrev S16x3x131072x1 : Shape := ⟨4, ![16, 3, 131072, 1]⟩
abbrev S1 : Shape := ⟨1, ![1]⟩
abbrev S1x1x1x1 : Shape := ⟨4, ![1, 1, 1, 1]⟩
abbrev S16x3x3 : Shape := ⟨3, ![16, 3, 3]⟩
abbrev S16x1x491520 : Shape := ⟨3, ![16, 1, 491520]⟩
abbrev S16x131072x1 : Shape := ⟨3, ![16, 131072, 1]⟩
abbrev S1x1x1 : Shape := ⟨3, ![1, 1, 1]⟩
abbrev S16x4x131072 : Shape := ⟨3, ![16, 4, 131072]⟩

abbrev nBuf : Space → Nat
  | .hbm => 59
  | .vmem => 0
  | .smem => 0
  | _ => 0

abbrev bufTy : (tb : Table) → Fin (tcTables nBuf tb) → BufTy
  | .hbm, ⟨0, _⟩ => ⟨S16x1x384x1280, .f32⟩
  | .hbm, ⟨1, _⟩ => ⟨S16x4x4, .f32⟩
  | .hbm, ⟨2, _⟩ => ⟨S16x3x491520, .f32⟩
  | .hbm, ⟨3, _⟩ => ⟨S16x131072, .i32⟩
  | .hbm, ⟨4, _⟩ => ⟨S16x1x131072, .i32⟩
  | .hbm, ⟨5, _⟩ => ⟨S16x3x131072, .i32⟩
  | .hbm, ⟨6, _⟩ => ⟨S_, .i32⟩
  | .hbm, ⟨7, _⟩ => ⟨S16x3x131072, .i32⟩
  | .hbm, ⟨8, _⟩ => ⟨S16x3x131072, .i1⟩
  | .hbm, ⟨9, _⟩ => ⟨S_, .i32⟩
  | .hbm, ⟨10, _⟩ => ⟨S16x3x131072, .i32⟩
  | .hbm, ⟨11, _⟩ => ⟨S16x3x131072, .i32⟩
  | .hbm, ⟨12, _⟩ => ⟨S16x3x131072, .i32⟩
  | .hbm, ⟨13, _⟩ => ⟨S16x3x131072x1, .i32⟩
  | .hbm, ⟨14, _⟩ => ⟨S1, .i32⟩
  | .hbm, ⟨15, _⟩ => ⟨S_, .i32⟩
  | .hbm, ⟨16, _⟩ => ⟨S16x3x131072x1, .i32⟩
  | .hbm, ⟨17, _⟩ => ⟨S16x3x131072x1, .i1⟩
  | .hbm, ⟨18, _⟩ => ⟨S1x1x1x1, .i32⟩
  | .hbm, ⟨19, _⟩ => ⟨S16x3x131072x1, .i32⟩
  | .hbm, ⟨20, _⟩ => ⟨S16x3x131072x1, .i1⟩
  | .hbm, ⟨21, _⟩ => ⟨S16x3x131072x1, .i1⟩
  | .hbm, ⟨22, _⟩ => ⟨S_, .i1⟩
  | .hbm, ⟨23, _⟩ => ⟨S16x3x131072, .i1⟩
  | .hbm, ⟨24, _⟩ => ⟨S16x3x131072, .f32⟩
  | .hbm, ⟨25, _⟩ => ⟨S_, .f32⟩
  | .hbm, ⟨26, _⟩ => ⟨S16x3x131072, .f32⟩
  | .hbm, ⟨27, _⟩ => ⟨S16x3x131072, .f32⟩
  | .hbm, ⟨28, _⟩ => ⟨S16x3x3, .f32⟩
  | .hbm, ⟨29, _⟩ => ⟨S16x3x131072, .f32⟩
  | .hbm, ⟨30, _⟩ => ⟨S16x1x491520, .f32⟩
  | .hbm, ⟨31, _⟩ => ⟨S_, .i32⟩
  | .hbm, ⟨32, _⟩ => ⟨S16x1x131072, .i32⟩
  | .hbm, ⟨33, _⟩ => ⟨S16x1x131072, .i1⟩
  | .hbm, ⟨34, _⟩ => ⟨S_, .i32⟩
  | .hbm, ⟨35, _⟩ => ⟨S16x1x131072, .i32⟩
  | .hbm, ⟨36, _⟩ => ⟨S16x1x131072, .i32⟩
  | .hbm, ⟨37, _⟩ => ⟨S16x1x131072, .i32⟩
  | .hbm, ⟨38, _⟩ => ⟨S16x131072x1, .i32⟩
  | .hbm, ⟨39, _⟩ => ⟨S1, .i32⟩
  | .hbm, ⟨40, _⟩ => ⟨S_, .i32⟩
  | .hbm, ⟨41, _⟩ => ⟨S16x131072x1, .i32⟩
  | .hbm, ⟨42, _⟩ => ⟨S16x131072x1, .i1⟩
  | .hbm, ⟨43, _⟩ => ⟨S1x1x1, .i32⟩
  | .hbm, ⟨44, _⟩ => ⟨S16x131072x1, .i32⟩
  | .hbm, ⟨45, _⟩ => ⟨S16x131072x1, .i1⟩
  | .hbm, ⟨46, _⟩ => ⟨S16x131072x1, .i1⟩
  | .hbm, ⟨47, _⟩ => ⟨S_, .i1⟩
  | .hbm, ⟨48, _⟩ => ⟨S16x131072, .i1⟩
  | .hbm, ⟨49, _⟩ => ⟨S16x1x131072, .f32⟩
  | .hbm, ⟨50, _⟩ => ⟨S16x1x131072, .i1⟩
  | .hbm, ⟨51, _⟩ => ⟨S_, .f32⟩
  | .hbm, ⟨52, _⟩ => ⟨S16x1x131072, .f32⟩
  | .hbm, ⟨53, _⟩ => ⟨S16x1x131072, .f32⟩
  | .hbm, ⟨54, _⟩ => ⟨S16x3x131072, .f32⟩
  | .hbm, ⟨55, _⟩ => ⟨S16x3x131072, .f32⟩
  | .hbm, ⟨56, _⟩ => ⟨S_, .f32⟩
  | .hbm, ⟨57, _⟩ => ⟨S16x1x131072, .f32⟩
  | .hbm, ⟨58, _⟩ => ⟨S16x4x131072, .f32⟩
  | _, _ => ⟨S16x1x384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_v9 : Ref sig .tc := ⟨.hbm, 57, rfl⟩
abbrev main_v10 : Ref sig .tc := ⟨.hbm, 58, rfl⟩

abbrev nD : Nat := 1
abbrev τ : Topo := Topo.v7x

variable {F : FTy → Type} [FloatOps F]

class Facts₀ : Prop where
  bcast_S16x131072_S16x1x131072_0_2 : S16x131072.BroadcastsInDim S16x1x131072 (![0, 2] : Fin 2 → Fin S16x1x131072.rank)
  bcast_S16x1x131072_S16x3x131072_0_1_2 : S16x1x131072.BroadcastsInDim S16x3x131072 (![0, 1, 2] : Fin 3 → Fin S16x3x131072.rank)
  bcast_S_S16x3x131072 : S_.BroadcastsInDim S16x3x131072 (![] : Fin 0 → Fin S16x3x131072.rank)
  shapeCasts_S16x3x131072_S16x3x131072x1 : S16x3x131072.ShapeCasts S16x3x131072x1
  bcast_S_S16x3x131072x1 : S_.BroadcastsInDim S16x3x131072x1 (![] : Fin 0 → Fin S16x3x131072x1.rank)
  bcast_S1_S1x1x1x1_3 : S1.BroadcastsInDim S1x1x1x1 (![3] : Fin 1 → Fin S1x1x1x1.rank)
  bcast_S1x1x1x1_S16x3x131072x1_0_1_2_3 : S1x1x1x1.BroadcastsInDim S16x3x131072x1 (![0, 1, 2, 3] : Fin 4 → Fin S16x3x131072x1.rank)
  reducesTo_S16x3x131072x1_S16x3x131072_d3 : S16x3x131072x1.ReducesTo [3] S16x3x131072
  h_S_ : 0 < S_.numel
  slices_S16x4x4_S16x3x3_0_0_0 : S16x4x4.Slices ![0, 0, 0] S16x3x3
  shapeCasts_S16x1x384x1280_S16x1x491520 : S16x1x384x1280.ShapeCasts S16x1x491520
  bcast_S_S16x1x131072 : S_.BroadcastsInDim S16x1x131072 (![] : Fin 0 → Fin S16x1x131072.rank)
  shapeCasts_S16x1x131072_S16x131072x1 : S16x1x131072.ShapeCasts S16x131072x1
  bcast_S_S16x131072x1 : S_.BroadcastsInDim S16x131072x1 (![] : Fin 0 → Fin S16x131072x1.rank)
  bcast_S1_S1x1x1_2 : S1.BroadcastsInDim S1x1x1 (![2] : Fin 1 → Fin S1x1x1.rank)
  bcast_S1x1x1_S16x131072x1_0_1_2 : S1x1x1.BroadcastsInDim S16x131072x1 (![0, 1, 2] : Fin 3 → Fin S16x131072x1.rank)
  reducesTo_S16x131072x1_S16x131072_d2 : S16x131072x1.ReducesTo [2] S16x131072
  concatenates_S16x3x131072_S16x1x131072_S16x4x131072_d1 : Shape.Concatenates [S16x3x131072, S16x1x131072] S16x4x131072 1
  gather_S16x3x491520_S16x3x131072x1_S16x3x131072_n_2_01_01_2_3_111_wf : GatherDims.WF S16x3x491520 S16x3x131072x1 S16x3x131072 [] [2] [0, 1] [2] [0, 1] 3 ![1, 1, 1]
  dot_S16x3x3_S16x3x131072_S16x3x131072_2_1_1_2_0_0_wf : DotDims.WF S16x3x3 S16x3x131072 S16x3x131072 [2] [1] [1] [2] [0] [0]
  gather_S16x1x491520_S16x131072x1_S16x1x131072_1_2_0_0_2_2_111_wf : GatherDims.WF S16x1x491520 S16x131072x1 S16x1x131072 [1] [2] [0] [2] [0] 2 ![1, 1, 1]

variable [Facts₀]

def gather_S16x3x491520_S16x3x131072x1_S16x3x131072_n_2_01_01_2_3_111 : GatherDims S16x3x491520 S16x3x131072x1 S16x3x131072 where
  offsetDims := []
  collapsedSliceDims := [2]
  operandBatchingDims := [0, 1]
  startIndicesBatchingDims := [0, 1]
  startIndexMap := [2]
  indexVectorDim := 3
  sliceSizes := ![1, 1, 1]
  wf := gather_S16x3x491520_S16x3x131072x1_S16x3x131072_n_2_01_01_2_3_111_wf
def dot_S16x3x3_S16x3x131072_S16x3x131072_2_1_1_2_0_0 : DotDims S16x3x3 S16x3x131072 S16x3x131072 where
  lhsContracting := [2]
  rhsContracting := [1]
  lhsNonContracting := [1]
  rhsNonContracting := [2]
  lhsBatch := [0]
  rhsBatch := [0]
  wf := dot_S16x3x3_S16x3x131072_S16x3x131072_2_1_1_2_0_0_wf
def gather_S16x1x491520_S16x131072x1_S16x1x131072_1_2_0_0_2_2_111 : GatherDims S16x1x491520 S16x131072x1 S16x1x131072 where
  offsetDims := [1]
  collapsedSliceDims := [2]
  operandBatchingDims := [0]
  startIndicesBatchingDims := [0]
  startIndexMap := [2]
  indexVectorDim := 2
  sliceSizes := ![1, 1, 1]
  wf := gather_S16x1x491520_S16x131072x1_S16x1x131072_1_2_0_0_2_2_111_wf

class Facts : Prop extends Facts₀ where

variable [Facts]
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRun.lean ====
/-
  The reference program's run, and what it leaves in its result array.

  The reference is a straight line of 55 array operations: the index array [16, 131072] laid along the last axis of
  [16, 1, 131072] and repeated over three rows; a first gather of pixel coordinates along the last axis of
  [16, 3, 491520]; the 3×3 corners of the sixteen matrices; their product with the gathered coordinates; the depth map
  flattened to [16, 1, 491520]; a second gather of depths at the same indices; depth × product; and a row of ones joined
  below. Each gather is jax's `take_along_axis`: an index below zero is moved up by the axis length, an index that is
  still outside [0, 491519] selects the fill value in place of an array element. Here the two gathered arrays are
  named (`pixSel`, `depSel`) and never opened: both programs compute them by the same operations from the same
  arguments, so whatever they hold, they hold on both sides.

  `run`: every weakly fair execution of the reference terminates with the result array at `result` of the four
  argument arrays as launched, and the argument arrays unchanged.
-/
import proofs.«149385_j18253611008840_2_alg».proof.Proof.Gen.ReferenceIdeal
import Idealize.ShloMosaic.Lib.StableHlo.Run
import proofs.«149385_j18253611008840_2_alg».proof.Proof.LibStretch

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result, each as a function of what it is computed from -/

/-- The indices laid along the last axis of [16, 1, 131072]. -/
def rowIdx (x3 : (⟨S16x131072, .i32⟩ : BufTy).Contents (Elt F)) : (⟨S16x1x131072, .i32⟩ : BufTy).Contents (Elt F) :=
  broadcastInDim S16x1x131072 ![0, 2] bcast_S16x131072_S16x1x131072_0_2 x3

/-- The same repeated over the three coordinate rows. -/
def rowIdx3 (x3 : (⟨S16x131072, .i32⟩ : BufTy).Contents (Elt F)) : (⟨S16x3x131072, .i32⟩ : BufTy).Contents (Elt F) :=
  broadcastInDim S16x3x131072 ![0, 1, 2] bcast_S16x1x131072_S16x3x131072_0_1_2 (rowIdx (F := F) x3)

/-- Three-row indices with the negative ones moved up by the axis length, one index per gathered element. -/
def pixIdxOf (v1 : (⟨S16x3x131072, .i32⟩ : BufTy).Contents (Elt F)) : (⟨S16x3x131072x1, .i32⟩ : BufTy).Contents (Elt F) :=
  shapeCast _ (select (cmpi .slt v1 (broadcastInDim S16x3x131072 ![] bcast_S_S16x3x131072 (constantI S_ 32 0#32)))
      (addi v1 (broadcastInDim S16x3x131072 ![] bcast_S_S16x3x131072 (constantI S_ 32 491520#32))) v1)
    shapeCasts_S16x3x131072_S16x3x131072x1

/-- Which gathered elements have their index inside [0, 491519] (three-row form). -/
def pixMaskOf (idx : (⟨S16x3x131072x1, .i32⟩ : BufTy).Contents (Elt F)) : (⟨S16x3x131072, .i1⟩ : BufTy).Contents (Elt F) :=
  Host.reduce IntOp.andi
    (andi (cmpi .sge idx (broadcastInDim S16x3x131072x1 ![] bcast_S_S16x3x131072x1 (constantI S_ 32 0#32)))
      (cmpi .sle idx (broadcastInDim S16x3x131072x1 ![0, 1, 2, 3] bcast_S1x1x1x1_S16x3x131072x1_0_1_2_3
        (broadcastInDim S1x1x1x1 ![3] bcast_S1_S1x1x1x1_3 (constantI S1 32 491519#32)))))
    (constantI S_ 1 1#1) reducesTo_S16x3x131072x1_S16x3x131072_d3 h_S_

/-- The gathered element where the index was inside the axis, the fill value elsewhere (three-row form). -/
def fillOutside3 (mask : (⟨S16x3x131072, .i1⟩ : BufTy).Contents (Elt F)) (raw : (⟨S16x3x131072, .f32⟩ : BufTy).Contents (Elt F)) :
    (⟨S16x3x131072, .f32⟩ : BufTy).Contents (Elt F) :=
  select mask raw (broadcastInDim S16x3x131072 ![] bcast_S_S16x3x131072 (constant S_ .f32 0x7FC00000#32))

/-- The pixel coordinates at given indices: the array element at an index inside [0, 491519], the fill value elsewhere. -/
def pixSelOf (x2 : (⟨S16x3x491520, .f32⟩ : BufTy).Contents (Elt F)) (idx : (⟨S16x3x131072x1, .i32⟩ : BufTy).Contents (Elt F)) :
    (⟨S16x3x131072, .f32⟩ : BufTy).Contents (Elt F) :=
  fillOutside3 (F := F) (pixMaskOf (F := F) idx)
    (Host.gather gather_S16x3x491520_S16x3x131072x1_S16x3x131072_n_2_01_01_2_3_111 x2 idx)

/-- One-row indices with the negative ones moved up by the axis length, one index per gathered element. -/
def depIdxOf (v0 : (⟨S16x1x131072, .i32⟩ : BufTy).Contents (Elt F)) : (⟨S16x131072x1, .i32⟩ : BufTy).Contents (Elt F) :=
  shapeCast _ (select (cmpi .slt v0 (broadcastInDim S16x1x131072 ![] bcast_S_S16x1x131072 (constantI S_ 32 0#32)))
      (addi v0 (broadcastInDim S16x1x131072 ![] bcast_S_S16x1x131072 (constantI S_ 32 491520#32))) v0)
    shapeCasts_S16x1x131072_S16x131072x1

/-- Which gathered elements have their index inside [0, 491519] (one-row form). -/
def depMaskOf (idx : (⟨S16x131072x1, .i32⟩ : BufTy).Contents (Elt F)) : (⟨S16x131072, .i1⟩ : BufTy).Contents (Elt F) :=
  Host.reduce IntOp.andi
    (andi (cmpi .sge idx (broadcastInDim S16x131072x1 ![] bcast_S_S16x131072x1 (constantI S_ 32 0#32)))
      (cmpi .sle idx (broadcastInDim S16x131072x1 ![0, 1, 2] bcast_S1x1x1_S16x131072x1_0_1_2
        (broadcastInDim S1x1x1 ![2] bcast_S1_S1x1x1_2 (constantI S1 32 491519#32)))))
    (constantI S_ 1 1#1) reducesTo_S16x131072x1_S16x131072_d2 h_S_

/-- The gathered element where the index was inside the axis, the fill value elsewhere (one-row form). -/
def fillOutside1 (mask : (⟨S16x131072, .i1⟩ : BufTy).Contents (Elt F)) (raw : (⟨S16x1x131072, .f32⟩ : BufTy).Contents (Elt F)) :
    (⟨S16x1x131072, .f32⟩ : BufTy).Contents (Elt F) :=
  select (broadcastInDim S16x1x131072 ![0, 2] bcast_S16x131072_S16x1x131072_0_2 mask) raw
    (broadcastInDim S16x1x131072 ![] bcast_S_S16x1x131072 (constant S_ .f32 0x7FC00000#32))

/-- The depths at given indices, from the depth map flattened to one row per batch element. -/
def depSelOf (flat : (⟨S16x1x491520, .f32⟩ : BufTy).Contents (Elt F)) (idx : (⟨S16x131072x1, .i32⟩ : BufTy).Contents (Elt F)) :
    (⟨S16x1x131072, .f32⟩ : BufTy).Contents (Elt F) :=
  fillOutside1 (F := F) (depMaskOf (F := F) idx)
    (Host.gather gather_S16x1x491520_S16x131072x1_S16x1x131072_1_2_0_0_2_2_111 flat idx)

/-- The selected pixel coordinates, from the coordinate array and the index array. -/
def pixSel (x2 : (⟨S16x3x491520, .f32⟩ : BufTy).Contents (Elt F)) (x3 : (⟨S16x131072, .i32⟩ : BufTy).Contents (Elt F)) :
    (⟨S16x3x131072, .f32⟩ : BufTy).Contents (Elt F) :=
  pixSelOf (F := F) x2 (pixIdxOf (F := F) (rowIdx3 (F := F) x3))

/-- The selected depths, from the depth map and the index array. -/
def depSel (x0 : (⟨S16x1x384x1280, .f32⟩ : BufTy).Contents (Elt F)) (x3 : (⟨S16x131072, .i32⟩ : BufTy).Contents (Elt F)) :
    (⟨S16x1x131072, .f32⟩ : BufTy).Contents (Elt F) :=
  depSelOf (F := F) (shapeCast _ x0 shapeCasts_S16x1x384x1280_S16x1x491520) (depIdxOf (F := F) (rowIdx (F := F) x3))

/-- The upper-left 3×3 corner of each matrix. -/
def corner (x1 : (⟨S16x4x4, .f32⟩ : BufTy).Contents (Elt F)) : (⟨S16x3x3, .f32⟩ : BufTy).Contents (Elt F) :=
  extractStridedSlice S16x3x3 ![0, 0, 0] x1 slices_S16x4x4_S16x3x3_0_0_0

/-- The last two steps over a product already formed: depth × product, the row of ones joined below. -/
def joinOnes (prod : (⟨S16x3x131072, .f32⟩ : BufTy).Contents (Elt F)) (dep : (⟨S16x1x131072, .f32⟩ : BufTy).Contents (Elt F)) :
    (⟨S16x4x131072, .f32⟩ : BufTy).Contents (Elt F) :=
  concatenate S16x4x131072 1
    [⟨S16x3x131072, mulf (broadcastInDim S16x3x131072 ![0, 1, 2] bcast_S16x1x131072_S16x3x131072_0_1_2 dep) prod⟩,
     ⟨S16x1x131072, broadcastInDim S16x1x131072 ![] bcast_S_S16x1x131072 (constant S_ .f32 0x3F800000#32)⟩]
    concatenates_S16x3x131072_S16x1x131072_S16x4x131072_d1

/-- The closing operations over the three pieces: product, depth × product, the row of ones joined below. -/
def closing (inv : (⟨S16x3x3, .f32⟩ : BufTy).Contents (Elt F)) (pix : (⟨S16x3x131072, .f32⟩ : BufTy).Contents (Elt F))
    (dep : (⟨S16x1x131072, .f32⟩ : BufTy).Contents (Elt F)) : (⟨S16x4x131072, .f32⟩ : BufTy).Contents (Elt F) :=
  joinOnes (F := F) (Host.dotGeneral dot_S16x3x3_S16x3x131072_S16x3x131072_2_1_1_2_0_0 none inv pix) dep

/-- The result array as a function of the four argument arrays. -/
def result (x0 : (⟨S16x1x384x1280, .f32⟩ : BufTy).Contents (Elt F)) (x1 : (⟨S16x4x4, .f32⟩ : BufTy).Contents (Elt F))
    (x2 : (⟨S16x3x491520, .f32⟩ : BufTy).Contents (Elt F)) (x3 : (⟨S16x131072, .i32⟩ : BufTy).Contents (Elt F)) :
    (⟨S16x4x131072, .f32⟩ : BufTy).Contents (Elt F) :=
  closing (F := F) (corner (F := F) x1) (pixSel (F := F) x2 x3) (depSel (F := F) x0 x3)

/-! ## The operations, in program order -/

/-- The reference's 55 operations (an outlined function's operations stand where it is called). -/
abbrev ops : List (HloOp τ sig (Elt F)) :=
  [ StableHlo.unary main_arg3 main_v0 (broadcastInDim S16x1x131072 ![0, 2] bcast_S16x131072_S16x1x131072_0_2 : (⟨S16x131072, .i32⟩ : BufTy).Contents (Elt F) → (⟨S16x1x131072, .i32⟩ : BufTy).Contents (Elt F)),
    StableHlo.unary main_v0 main_v1 (broadcastInDim S16x3x131072 ![0, 1, 2] bcast_S16x1x131072_S16x3x131072_0_1_2 : (⟨S16x1x131072, .i32⟩ : BufTy).Contents (Elt F) → (⟨S16x3x131072, .i32⟩ : BufTy).Contents (Elt F)),
StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v0 : StableHlo.TRef sig ⟨S16x3x131072, .i32⟩) (.of main_call0_v1 : StableHlo.TRef sig ⟨S16x3x131072, .i1⟩) (cmpi .slt),
    StableHlo.TRef.nullary (.of main_call0_c_0 : StableHlo.TRef sig ⟨S_, .i32⟩) (constantI S_ 32 491520#32),
    StableHlo.TRef.unary (.of main_call0_c_0 : StableHlo.TRef sig ⟨S_, .i32⟩) (.of main_call0_v2 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v2 : StableHlo.TRef sig ⟨S16x3x131072, .i32⟩) (.of main_call0_v3 : StableHlo.TRef sig ⟨S16x3x131072, .i32⟩) addi,
    StableHlo.TRef.ternary (.of main_call0_v1 : StableHlo.TRef sig ⟨S16x3x131072, .i1⟩) (.of main_call0_v3 : StableHlo.TRef sig ⟨S16x3x131072, .i32⟩) (.of main_v1 : StableHlo.TRef sig ⟨S16x3x131072, .i32⟩) (.of main_call0_v4 : StableHlo.TRef sig ⟨S16x3x131072, .i32⟩) select,
    StableHlo.TRef.reshape (.of main_call0_v4 : StableHlo.TRef sig ⟨S16x3x131072, .i32⟩) (.of main_call0_v5 : StableHlo.TRef sig ⟨S16x3x131072x1, .i32⟩) rfl shapeCasts_S16x3x131072_S16x3x131072x1,
    StableHlo.TRef.nullary (.of main_call0_c_1 : StableHlo.TRef sig ⟨S1, .i32⟩) (constantI S1 32 491519#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16x3x131072x1, .i32⟩) (broadcastInDim S16x3x131072x1 ![] bcast_S_S16x3x131072x1),
    StableHlo.TRef.binary (.of main_call0_v5 : StableHlo.TRef sig ⟨S16x3x131072x1, .i32⟩) (.of main_call0_v6 : StableHlo.TRef sig ⟨S16x3x131072x1, .i32⟩) (.of main_call0_v7 : StableHlo.TRef sig ⟨S16x3x131072x1, .i1⟩) (cmpi .sge),
    StableHlo.TRef.unary (.of main_call0_c_1 : StableHlo.TRef sig ⟨S1, .i32⟩) (.of main_call0_v8 : StableHlo.TRef sig ⟨S1x1x1x1, .i32⟩) (broadcastInDim S1x1x1x1 ![3] bcast_S1_S1x1x1x1_3),
    StableHlo.TRef.unary (.of main_call0_v8 : StableHlo.TRef sig ⟨S1x1x1x1, .i32⟩) (.of main_call0_v9 : StableHlo.TRef sig ⟨S16x3x131072x1, .i32⟩) (broadcastInDim S16x3x131072x1 ![0, 1, 2, 3] bcast_S1x1x1x1_S16x3x131072x1_0_1_2_3),
    StableHlo.TRef.binary (.of main_call0_v5 : StableHlo.TRef sig ⟨S16x3x131072x1, .i32⟩) (.of main_call0_v9 : StableHlo.TRef sig ⟨S16x3x131072x1, .i32⟩) (.of main_call0_v10 : StableHlo.TRef sig ⟨S16x3x131072x1, .i1⟩) (cmpi .sle),
    StableHlo.TRef.binary (.of main_call0_v7 : StableHlo.TRef sig ⟨S16x3x131072x1, .i1⟩) (.of main_call0_v10 : StableHlo.TRef sig ⟨S16x3x131072x1, .i1⟩) (.of main_call0_v11 : StableHlo.TRef sig ⟨S16x3x131072x1, .i1⟩) andi,
    StableHlo.TRef.nullary (.of main_call0_c_3 : StableHlo.TRef sig ⟨S_, .i1⟩) (constantI S_ 1 1#1),
    StableHlo.TRef.binary (.of main_call0_v11 : StableHlo.TRef sig ⟨S16x3x131072x1, .i1⟩) (.of main_call0_c_3 : StableHlo.TRef sig ⟨S_, .i1⟩) (.of main_call0_v12 : StableHlo.TRef sig ⟨S16x3x131072, .i1⟩) (fun x v => Host.reduce IntOp.andi x v reducesTo_S16x3x131072x1_S16x3x131072_d3 h_S_),
    StableHlo.TRef.binary (.of main_arg2 : StableHlo.TRef sig ⟨S16x3x491520, .f32⟩) (.of main_call0_v5 : StableHlo.TRef sig ⟨S16x3x131072x1, .i32⟩) (.of main_call0_v13 : StableHlo.TRef sig ⟨S16x3x131072, .f32⟩) (fun x i => Host.gather gather_S16x3x491520_S16x3x131072x1_S16x3x131072_n_2_01_01_2_3_111 x i),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S16x3x131072, .f32⟩) (broadcastInDim S16x3x131072 ![] bcast_S_S16x3x131072),
    StableHlo.TRef.ternary (.of main_call0_v12 : StableHlo.TRef sig ⟨S16x3x131072, .i1⟩) (.of main_call0_v13 : StableHlo.TRef sig ⟨S16x3x131072, .f32⟩) (.of main_call0_v14 : StableHlo.TRef sig ⟨S16x3x131072, .f32⟩) (.of main_v2 : StableHlo.TRef sig ⟨S16x3x131072, .f32⟩) select,
    StableHlo.unary main_arg1 main_v3 ((extractStridedSlice S16x3x3 ![0, 0, 0] · slices_S16x4x4_S16x3x3_0_0_0) : (⟨S16x4x4, .f32⟩ : BufTy).Contents (Elt F) → (⟨S16x3x3, .f32⟩ : BufTy).Contents (Elt F)),
    StableHlo.binary main_v3 main_v2 main_v4 ((fun l r => Host.dotGeneral dot_S16x3x3_S16x3x131072_S16x3x131072_2_1_1_2_0_0 none l r) : (⟨S16x3x3, .f32⟩ : BufTy).Contents (Elt F) → (⟨S16x3x131072, .f32⟩ : BufTy).Contents (Elt F) → (⟨S16x3x131072, .f32⟩ : BufTy).Contents (Elt F)),
    StableHlo.reshape main_arg0 main_v5 rfl shapeCasts_S16x1x384x1280_S16x1x491520,
StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v0 : StableHlo.TRef sig ⟨S16x1x131072, .i32⟩) (.of main_call1_v1 : StableHlo.TRef sig ⟨S16x1x131072, .i1⟩) (cmpi .slt),
    StableHlo.TRef.nullary (.of main_call1_c_0 : StableHlo.TRef sig ⟨S_, .i32⟩) (constantI S_ 32 491520#32),
    StableHlo.TRef.unary (.of main_call1_c_0 : StableHlo.TRef sig ⟨S_, .i32⟩) (.of main_call1_v2 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v2 : StableHlo.TRef sig ⟨S16x1x131072, .i32⟩) (.of main_call1_v3 : StableHlo.TRef sig ⟨S16x1x131072, .i32⟩) addi,
    StableHlo.TRef.ternary (.of main_call1_v1 : StableHlo.TRef sig ⟨S16x1x131072, .i1⟩) (.of main_call1_v3 : StableHlo.TRef sig ⟨S16x1x131072, .i32⟩) (.of main_v0 : StableHlo.TRef sig ⟨S16x1x131072, .i32⟩) (.of main_call1_v4 : StableHlo.TRef sig ⟨S16x1x131072, .i32⟩) select,
    StableHlo.TRef.reshape (.of main_call1_v4 : StableHlo.TRef sig ⟨S16x1x131072, .i32⟩) (.of main_call1_v5 : StableHlo.TRef sig ⟨S16x131072x1, .i32⟩) rfl shapeCasts_S16x1x131072_S16x131072x1,
    StableHlo.TRef.nullary (.of main_call1_c_1 : StableHlo.TRef sig ⟨S1, .i32⟩) (constantI S1 32 491519#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16x131072x1, .i32⟩) (broadcastInDim S16x131072x1 ![] bcast_S_S16x131072x1),
    StableHlo.TRef.binary (.of main_call1_v5 : StableHlo.TRef sig ⟨S16x131072x1, .i32⟩) (.of main_call1_v6 : StableHlo.TRef sig ⟨S16x131072x1, .i32⟩) (.of main_call1_v7 : StableHlo.TRef sig ⟨S16x131072x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16x131072x1, .i32⟩) (broadcastInDim S16x131072x1 ![0, 1, 2] bcast_S1x1x1_S16x131072x1_0_1_2),
    StableHlo.TRef.binary (.of main_call1_v5 : StableHlo.TRef sig ⟨S16x131072x1, .i32⟩) (.of main_call1_v9 : StableHlo.TRef sig ⟨S16x131072x1, .i32⟩) (.of main_call1_v10 : StableHlo.TRef sig ⟨S16x131072x1, .i1⟩) (cmpi .sle),
    StableHlo.TRef.binary (.of main_call1_v7 : StableHlo.TRef sig ⟨S16x131072x1, .i1⟩) (.of main_call1_v10 : StableHlo.TRef sig ⟨S16x131072x1, .i1⟩) (.of main_call1_v11 : StableHlo.TRef sig ⟨S16x131072x1, .i1⟩) andi,
    StableHlo.TRef.nullary (.of main_call1_c_3 : StableHlo.TRef sig ⟨S_, .i1⟩) (constantI S_ 1 1#1),
    StableHlo.TRef.binary (.of main_call1_v11 : StableHlo.TRef sig ⟨S16x131072x1, .i1⟩) (.of main_call1_c_3 : StableHlo.TRef sig ⟨S_, .i1⟩) (.of main_call1_v12 : StableHlo.TRef sig ⟨S16x131072, .i1⟩) (fun x v => Host.reduce IntOp.andi x v reducesTo_S16x131072x1_S16x131072_d2 h_S_),
    StableHlo.TRef.binary (.of main_v5 : StableHlo.TRef sig ⟨S16x1x491520, .f32⟩) (.of main_call1_v5 : StableHlo.TRef sig ⟨S16x131072x1, .i32⟩) (.of main_call1_v13 : StableHlo.TRef sig ⟨S16x1x131072, .f32⟩) (fun x i => Host.gather gather_S16x1x491520_S16x131072x1_S16x1x131072_1_2_0_0_2_2_111 x i),
    StableHlo.TRef.unary (.of main_call1_v12 : StableHlo.TRef sig ⟨S16x131072, .i1⟩) (.of main_call1_v14 : StableHlo.TRef sig ⟨S16x1x131072, .i1⟩) (broadcastInDim S16x1x131072 ![0, 2] bcast_S16x131072_S16x1x131072_0_2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16x1x131072, .f32⟩) (broadcastInDim S16x1x131072 ![] bcast_S_S16x1x131072),
    StableHlo.TRef.ternary (.of main_call1_v14 : StableHlo.TRef sig ⟨S16x1x131072, .i1⟩) (.of main_call1_v13 : StableHlo.TRef sig ⟨S16x1x131072, .f32⟩) (.of main_call1_v15 : StableHlo.TRef sig ⟨S16x1x131072, .f32⟩) (.of main_v6 : StableHlo.TRef sig ⟨S16x1x131072, .f32⟩) select,
    StableHlo.unary main_v6 main_v7 (broadcastInDim S16x3x131072 ![0, 1, 2] bcast_S16x1x131072_S16x3x131072_0_1_2 : (⟨S16x1x131072, .f32⟩ : BufTy).Contents (Elt F) → (⟨S16x3x131072, .f32⟩ : BufTy).Contents (Elt F)),
    StableHlo.binary main_v7 main_v4 main_v8 (mulf : (⟨S16x3x131072, .f32⟩ : BufTy).Contents (Elt F) → (⟨S16x3x131072, .f32⟩ : BufTy).Contents (Elt F) → (⟨S16x3x131072, .f32⟩ : BufTy).Contents (Elt F)),
    StableHlo.nullary main_cst (constant S_ .f32 0x3F800000#32),
    StableHlo.unary main_cst main_v9 (broadcastInDim S16x1x131072 ![] bcast_S_S16x1x131072 : (⟨S_, .f32⟩ : BufTy).Contents (Elt F) → (⟨S16x1x131072, .f32⟩ : BufTy).Contents (Elt F)),
    StableHlo.binary main_v8 main_v9 main_v10 ((fun a b => concatenate S16x4x131072 1 [⟨S16x3x131072, a⟩, ⟨S16x1x131072, b⟩] concatenates_S16x3x131072_S16x1x131072_S16x4x131072_d1) : (⟨S16x3x131072, .f32⟩ : BufTy).Contents (Elt F) → (⟨S16x1x131072, .f32⟩ : BufTy).Contents (Elt F) → (⟨S16x4x131072, .f32⟩ : BufTy).Contents (Elt F)) ]

set_option maxRecDepth 65536 in
/-- The printed program is these operations run in order. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
/-- Every operation touches buffers of the one core only. -/
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., binary_bufs_sub ..⟩

/-! ## The line cut into pieces

Each piece is read back from WHATEVER contents it finds (`W`): what it computes, from the buffers it reads, and
that the buffers later pieces still need pass through it untouched. -/

/-- Operations 1–2: the index array laid out. -/
abbrev opsIdx : List (HloOp τ sig (Elt F)) :=
  [ StableHlo.unary main_arg3 main_v0 (broadcastInDim S16x1x131072 ![0, 2] bcast_S16x131072_S16x1x131072_0_2 : (⟨S16x131072, .i32⟩ : BufTy).Contents (Elt F) → (⟨S16x1x131072, .i32⟩ : BufTy).Contents (Elt F)),
    StableHlo.unary main_v0 main_v1 (broadcastInDim S16x3x131072 ![0, 1, 2] bcast_S16x1x131072_S16x3x131072_0_1_2 : (⟨S16x1x131072, .i32⟩ : BufTy).Contents (Elt F) → (⟨S16x3x131072, .i32⟩ : BufTy).Contents (Elt F)) ]

/-- Operations 3–10: the pixel gather's indices. -/
abbrev opsPixA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v0 : StableHlo.TRef sig ⟨S16x3x131072, .i32⟩) (.of main_call0_v1 : StableHlo.TRef sig ⟨S16x3x131072, .i1⟩) (cmpi .slt),
    StableHlo.TRef.nullary (.of main_call0_c_0 : StableHlo.TRef sig ⟨S_, .i32⟩) (constantI S_ 32 491520#32),
    StableHlo.TRef.unary (.of main_call0_c_0 : StableHlo.TRef sig ⟨S_, .i32⟩) (.of main_call0_v2 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v2 : StableHlo.TRef sig ⟨S16x3x131072, .i32⟩) (.of main_call0_v3 : StableHlo.TRef sig ⟨S16x3x131072, .i32⟩) addi,
    StableHlo.TRef.ternary (.of main_call0_v1 : StableHlo.TRef sig ⟨S16x3x131072, .i1⟩) (.of main_call0_v3 : StableHlo.TRef sig ⟨S16x3x131072, .i32⟩) (.of main_v1 : StableHlo.TRef sig ⟨S16x3x131072, .i32⟩) (.of main_call0_v4 : StableHlo.TRef sig ⟨S16x3x131072, .i32⟩) select,
    StableHlo.TRef.reshape (.of main_call0_v4 : StableHlo.TRef sig ⟨S16x3x131072, .i32⟩) (.of main_call0_v5 : StableHlo.TRef sig ⟨S16x3x131072x1, .i32⟩) rfl shapeCasts_S16x3x131072_S16x3x131072x1 ]

/-- Operations 11–20: which of those indices are inside the axis. -/
abbrev opsPixM : List (HloOp τ sig (Elt F)) :=
  [ StableHlo.TRef.nullary (.of main_call0_c_1 : StableHlo.TRef sig ⟨S1, .i32⟩) (constantI S1 32 491519#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16x3x131072x1, .i32⟩) (broadcastInDim S16x3x131072x1 ![] bcast_S_S16x3x131072x1),
    StableHlo.TRef.binary (.of main_call0_v5 : StableHlo.TRef sig ⟨S16x3x131072x1, .i32⟩) (.of main_call0_v6 : StableHlo.TRef sig ⟨S16x3x131072x1, .i32⟩) (.of main_call0_v7 : StableHlo.TRef sig ⟨S16x3x131072x1, .i1⟩) (cmpi .sge),
    StableHlo.TRef.unary (.of main_call0_c_1 : StableHlo.TRef sig ⟨S1, .i32⟩) (.of main_call0_v8 : StableHlo.TRef sig ⟨S1x1x1x1, .i32⟩) (broadcastInDim S1x1x1x1 ![3] bcast_S1_S1x1x1x1_3),
    StableHlo.TRef.unary (.of main_call0_v8 : StableHlo.TRef sig ⟨S1x1x1x1, .i32⟩) (.of main_call0_v9 : StableHlo.TRef sig ⟨S16x3x131072x1, .i32⟩) (broadcastInDim S16x3x131072x1 ![0, 1, 2, 3] bcast_S1x1x1x1_S16x3x131072x1_0_1_2_3),
    StableHlo.TRef.binary (.of main_call0_v5 : StableHlo.TRef sig ⟨S16x3x131072x1, .i32⟩) (.of main_call0_v9 : StableHlo.TRef sig ⟨S16x3x131072x1, .i32⟩) (.of main_call0_v10 : StableHlo.TRef sig ⟨S16x3x131072x1, .i1⟩) (cmpi .sle),
    StableHlo.TRef.binary (.of main_call0_v7 : StableHlo.TRef sig ⟨S16x3x131072x1, .i1⟩) (.of main_call0_v10 : StableHlo.TRef sig ⟨S16x3x131072x1, .i1⟩) (.of main_call0_v11 : StableHlo.TRef sig ⟨S16x3x131072x1, .i1⟩) andi,
    StableHlo.TRef.nullary (.of main_call0_c_3 : StableHlo.TRef sig ⟨S_, .i1⟩) (constantI S_ 1 1#1),
    StableHlo.TRef.binary (.of main_call0_v11 : StableHlo.TRef sig ⟨S16x3x131072x1, .i1⟩) (.of main_call0_c_3 : StableHlo.TRef sig ⟨S_, .i1⟩) (.of main_call0_v12 : StableHlo.TRef sig ⟨S16x3x131072, .i1⟩) (fun x v => Host.reduce IntOp.andi x v reducesTo_S16x3x131072x1_S16x3x131072_d3 h_S_) ]

/-- Operations 21–21: the pixel gather itself. -/
abbrev opsPixG : List (HloOp τ sig (Elt F)) :=
  [ StableHlo.TRef.binary (.of main_arg2 : StableHlo.TRef sig ⟨S16x3x491520, .f32⟩) (.of main_call0_v5 : StableHlo.TRef sig ⟨S16x3x131072x1, .i32⟩) (.of main_call0_v13 : StableHlo.TRef sig ⟨S16x3x131072, .f32⟩) (fun x i => Host.gather gather_S16x3x491520_S16x3x131072x1_S16x3x131072_n_2_01_01_2_3_111 x i) ]

/-- Operations 22–24: the fill value outside the axis. -/
abbrev opsPixS : List (HloOp τ sig (Elt F)) :=
  [ StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S16x3x131072, .f32⟩) (broadcastInDim S16x3x131072 ![] bcast_S_S16x3x131072),
    StableHlo.TRef.ternary (.of main_call0_v12 : StableHlo.TRef sig ⟨S16x3x131072, .i1⟩) (.of main_call0_v13 : StableHlo.TRef sig ⟨S16x3x131072, .f32⟩) (.of main_call0_v14 : StableHlo.TRef sig ⟨S16x3x131072, .f32⟩) (.of main_v2 : StableHlo.TRef sig ⟨S16x3x131072, .f32⟩) select ]

/-- Operations 25–27: corner, product, flattened depth. -/
abbrev opsMid : List (HloOp τ sig (Elt F)) :=
  [ StableHlo.unary main_arg1 main_v3 ((extractStridedSlice S16x3x3 ![0, 0, 0] · slices_S16x4x4_S16x3x3_0_0_0) : (⟨S16x4x4, .f32⟩ : BufTy).Contents (Elt F) → (⟨S16x3x3, .f32⟩ : BufTy).Contents (Elt F)),
    StableHlo.binary main_v3 main_v2 main_v4 ((fun l r => Host.dotGeneral dot_S16x3x3_S16x3x131072_S16x3x131072_2_1_1_2_0_0 none l r) : (⟨S16x3x3, .f32⟩ : BufTy).Contents (Elt F) → (⟨S16x3x131072, .f32⟩ : BufTy).Contents (Elt F) → (⟨S16x3x131072, .f32⟩ : BufTy).Contents (Elt F)),
    StableHlo.reshape main_arg0 main_v5 rfl shapeCasts_S16x1x384x1280_S16x1x491520 ]

/-- Operations 28–35: the depth gather's indices. -/
abbrev opsDepA : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v0 : StableHlo.TRef sig ⟨S16x1x131072, .i32⟩) (.of main_call1_v1 : StableHlo.TRef sig ⟨S16x1x131072, .i1⟩) (cmpi .slt),
    StableHlo.TRef.nullary (.of main_call1_c_0 : StableHlo.TRef sig ⟨S_, .i32⟩) (constantI S_ 32 491520#32),
    StableHlo.TRef.unary (.of main_call1_c_0 : StableHlo.TRef sig ⟨S_, .i32⟩) (.of main_call1_v2 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v2 : StableHlo.TRef sig ⟨S16x1x131072, .i32⟩) (.of main_call1_v3 : StableHlo.TRef sig ⟨S16x1x131072, .i32⟩) addi,
    StableHlo.TRef.ternary (.of main_call1_v1 : StableHlo.TRef sig ⟨S16x1x131072, .i1⟩) (.of main_call1_v3 : StableHlo.TRef sig ⟨S16x1x131072, .i32⟩) (.of main_v0 : StableHlo.TRef sig ⟨S16x1x131072, .i32⟩) (.of main_call1_v4 : StableHlo.TRef sig ⟨S16x1x131072, .i32⟩) select,
    StableHlo.TRef.reshape (.of main_call1_v4 : StableHlo.TRef sig ⟨S16x1x131072, .i32⟩) (.of main_call1_v5 : StableHlo.TRef sig ⟨S16x131072x1, .i32⟩) rfl shapeCasts_S16x1x131072_S16x131072x1 ]

/-- Operations 36–45: which of those indices are inside the axis. -/
abbrev opsDepM : List (HloOp τ sig (Elt F)) :=
  [ StableHlo.TRef.nullary (.of main_call1_c_1 : StableHlo.TRef sig ⟨S1, .i32⟩) (constantI S1 32 491519#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16x131072x1, .i32⟩) (broadcastInDim S16x131072x1 ![] bcast_S_S16x131072x1),
    StableHlo.TRef.binary (.of main_call1_v5 : StableHlo.TRef sig ⟨S16x131072x1, .i32⟩) (.of main_call1_v6 : StableHlo.TRef sig ⟨S16x131072x1, .i32⟩) (.of main_call1_v7 : StableHlo.TRef sig ⟨S16x131072x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16x131072x1, .i32⟩) (broadcastInDim S16x131072x1 ![0, 1, 2] bcast_S1x1x1_S16x131072x1_0_1_2),
    StableHlo.TRef.binary (.of main_call1_v5 : StableHlo.TRef sig ⟨S16x131072x1, .i32⟩) (.of main_call1_v9 : StableHlo.TRef sig ⟨S16x131072x1, .i32⟩) (.of main_call1_v10 : StableHlo.TRef sig ⟨S16x131072x1, .i1⟩) (cmpi .sle),
    StableHlo.TRef.binary (.of main_call1_v7 : StableHlo.TRef sig ⟨S16x131072x1, .i1⟩) (.of main_call1_v10 : StableHlo.TRef sig ⟨S16x131072x1, .i1⟩) (.of main_call1_v11 : StableHlo.TRef sig ⟨S16x131072x1, .i1⟩) andi,
    StableHlo.TRef.nullary (.of main_call1_c_3 : StableHlo.TRef sig ⟨S_, .i1⟩) (constantI S_ 1 1#1),
    StableHlo.TRef.binary (.of main_call1_v11 : StableHlo.TRef sig ⟨S16x131072x1, .i1⟩) (.of main_call1_c_3 : StableHlo.TRef sig ⟨S_, .i1⟩) (.of main_call1_v12 : StableHlo.TRef sig ⟨S16x131072, .i1⟩) (fun x v => Host.reduce IntOp.andi x v reducesTo_S16x131072x1_S16x131072_d2 h_S_) ]

/-- Operations 46–46: the depth gather itself. -/
abbrev opsDepG : List (HloOp τ sig (Elt F)) :=
  [ StableHlo.TRef.binary (.of main_v5 : StableHlo.TRef sig ⟨S16x1x491520, .f32⟩) (.of main_call1_v5 : StableHlo.TRef sig ⟨S16x131072x1, .i32⟩) (.of main_call1_v13 : StableHlo.TRef sig ⟨S16x1x131072, .f32⟩) (fun x i => Host.gather gather_S16x1x491520_S16x131072x1_S16x1x131072_1_2_0_0_2_2_111 x i) ]

/-- Operations 47–50: the fill value outside the axis. -/
abbrev opsDepS : List (HloOp τ sig (Elt F)) :=
  [ StableHlo.TRef.unary (.of main_call1_v12 : StableHlo.TRef sig ⟨S16x131072, .i1⟩) (.of main_call1_v14 : StableHlo.TRef sig ⟨S16x1x131072, .i1⟩) (broadcastInDim S16x1x131072 ![0, 2] bcast_S16x131072_S16x1x131072_0_2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16x1x131072, .f32⟩) (broadcastInDim S16x1x131072 ![] bcast_S_S16x1x131072),
    StableHlo.TRef.ternary (.of main_call1_v14 : StableHlo.TRef sig ⟨S16x1x131072, .i1⟩) (.of main_call1_v13 : StableHlo.TRef sig ⟨S16x1x131072, .f32⟩) (.of main_call1_v15 : StableHlo.TRef sig ⟨S16x1x131072, .f32⟩) (.of main_v6 : StableHlo.TRef sig ⟨S16x1x131072, .f32⟩) select ]

/-- Operations 51–55: depth × product and the row of ones. -/
abbrev opsClose : List (HloOp τ sig (Elt F)) :=
  [ StableHlo.unary main_v6 main_v7 (broadcastInDim S16x3x131072 ![0, 1, 2] bcast_S16x1x131072_S16x3x131072_0_1_2 : (⟨S16x1x131072, .f32⟩ : BufTy).Contents (Elt F) → (⟨S16x3x131072, .f32⟩ : BufTy).Contents (Elt F)),
    StableHlo.binary main_v7 main_v4 main_v8 (mulf : (⟨S16x3x131072, .f32⟩ : BufTy).Contents (Elt F) → (⟨S16x3x131072, .f32⟩ : BufTy).Contents (Elt F) → (⟨S16x3x131072, .f32⟩ : BufTy).Contents (Elt F)),
    StableHlo.nullary main_cst (constant S_ .f32 0x3F800000#32),
    StableHlo.unary main_cst main_v9 (broadcastInDim S16x1x131072 ![] bcast_S_S16x1x131072 : (⟨S_, .f32⟩ : BufTy).Contents (Elt F) → (⟨S16x1x131072, .f32⟩ : BufTy).Contents (Elt F)),
    StableHlo.binary main_v8 main_v9 main_v10 ((fun a b => concatenate S16x4x131072 1 [⟨S16x3x131072, a⟩, ⟨S16x1x131072, b⟩] concatenates_S16x3x131072_S16x1x131072_S16x4x131072_d1) : (⟨S16x3x131072, .f32⟩ : BufTy).Contents (Elt F) → (⟨S16x1x131072, .f32⟩ : BufTy).Contents (Elt F) → (⟨S16x4x131072, .f32⟩ : BufTy).Contents (Elt F)) ]

set_option maxRecDepth 65536 in
/-- The line is its pieces in order. -/
theorem ops_split : (ops : List (HloOp τ sig (Elt F))) = opsIdx ++ (opsPixA ++ (opsPixM ++ (opsPixG ++ (opsPixS ++ (opsMid ++ (opsDepA ++ (opsDepM ++ (opsDepG ++ (opsDepS ++ (opsClose)))))))))) := rfl

/-! ## Each piece read back -/

set_option maxHeartbeats 1000000 in
theorem idx_v0 (W : Valuation τ sig (Elt F)) :
    after opsIdx W (Proc.devRef .tc main_v0) = rowIdx (F := F) (W (Proc.devRef .tc main_arg3)) := by
  after_results
  rfl
set_option maxHeartbeats 1000000 in
theorem idx_v1 (W : Valuation τ sig (Elt F)) :
    after opsIdx W (Proc.devRef .tc main_v1) = rowIdx3 (F := F) (W (Proc.devRef .tc main_arg3)) := by
  after_results
  rfl
theorem opsIdx_keeps_main_arg0 (W : Valuation τ sig (Elt F)) : after opsIdx W (Proc.devRef .tc main_arg0) = W (Proc.devRef .tc main_arg0) := by
  after_results
theorem opsIdx_keeps_main_arg1 (W : Valuation τ sig (Elt F)) : after opsIdx W (Proc.devRef .tc main_arg1) = W (Proc.devRef .tc main_arg1) := by
  after_results
theorem opsIdx_keeps_main_arg2 (W : Valuation τ sig (Elt F)) : after opsIdx W (Proc.devRef .tc main_arg2) = W (Proc.devRef .tc main_arg2) := by
  after_results

set_option maxHeartbeats 1000000 in
theorem pixA_idx (W : Valuation τ sig (Elt F)) :
    after opsPixA W (Proc.devRef .tc main_call0_v5) = pixIdxOf (F := F) (W (Proc.devRef .tc main_v1)) := by
  after_results
  rfl
theorem opsPixA_keeps_main_arg0 (W : Valuation τ sig (Elt F)) : after opsPixA W (Proc.devRef .tc main_arg0) = W (Proc.devRef .tc main_arg0) := by
  after_results
theorem opsPixA_keeps_main_arg1 (W : Valuation τ sig (Elt F)) : after opsPixA W (Proc.devRef .tc main_arg1) = W (Proc.devRef .tc main_arg1) := by
  after_results
theorem opsPixA_keeps_main_arg2 (W : Valuation τ sig (Elt F)) : after opsPixA W (Proc.devRef .tc main_arg2) = W (Proc.devRef .tc main_arg2) := by
  after_results
theorem opsPixA_keeps_main_v0 (W : Valuation τ sig (Elt F)) : after opsPixA W (Proc.devRef .tc main_v0) = W (Proc.devRef .tc main_v0) := by
  after_results

set_option maxHeartbeats 1000000 in
theorem pixM_mask (W : Valuation τ sig (Elt F)) :
    after opsPixM W (Proc.devRef .tc main_call0_v12) = pixMaskOf (F := F) (W (Proc.devRef .tc main_call0_v5)) := by
  after_results
  simp only [Cert.LibStretch.ofBuf_toBuf]
  refine (eq_of_heq (cast_heq _ _)).trans ?_
  rfl
theorem opsPixM_keeps_main_arg0 (W : Valuation τ sig (Elt F)) : after opsPixM W (Proc.devRef .tc main_arg0) = W (Proc.devRef .tc main_arg0) := by
  after_results
theorem opsPixM_keeps_main_arg1 (W : Valuation τ sig (Elt F)) : after opsPixM W (Proc.devRef .tc main_arg1) = W (Proc.devRef .tc main_arg1) := by
  after_results
theorem opsPixM_keeps_main_arg2 (W : Valuation τ sig (Elt F)) : after opsPixM W (Proc.devRef .tc main_arg2) = W (Proc.devRef .tc main_arg2) := by
  after_results
theorem opsPixM_keeps_main_v0 (W : Valuation τ sig (Elt F)) : after opsPixM W (Proc.devRef .tc main_v0) = W (Proc.devRef .tc main_v0) := by
  after_results
theorem opsPixM_keeps_main_call0_v5 (W : Valuation τ sig (Elt F)) : after opsPixM W (Proc.devRef .tc main_call0_v5) = W (Proc.devRef .tc main_call0_v5) := by
  after_results

set_option maxHeartbeats 1000000 in
theorem pixG_raw (W : Valuation τ sig (Elt F)) :
    after opsPixG W (Proc.devRef .tc main_call0_v13) = Host.gather gather_S16x3x491520_S16x3x131072x1_S16x3x131072_n_2_01_01_2_3_111 (W (Proc.devRef .tc main_arg2)) (W (Proc.devRef .tc main_call0_v5)) := by
  after_results
  rfl
theorem opsPixG_keeps_main_arg0 (W : Valuation τ sig (Elt F)) : after opsPixG W (Proc.devRef .tc main_arg0) = W (Proc.devRef .tc main_arg0) := by
  after_results
theorem opsPixG_keeps_main_arg1 (W : Valuation τ sig (Elt F)) : after opsPixG W (Proc.devRef .tc main_arg1) = W (Proc.devRef .tc main_arg1) := by
  after_results
theorem opsPixG_keeps_main_v0 (W : Valuation τ sig (Elt F)) : after opsPixG W (Proc.devRef .tc main_v0) = W (Proc.devRef .tc main_v0) := by
  after_results
theorem opsPixG_keeps_main_call0_v12 (W : Valuation τ sig (Elt F)) : after opsPixG W (Proc.devRef .tc main_call0_v12) = W (Proc.devRef .tc main_call0_v12) := by
  after_results

set_option maxHeartbeats 1000000 in
theorem pixS_v2 (W : Valuation τ sig (Elt F)) :
    after opsPixS W (Proc.devRef .tc main_v2) = fillOutside3 (F := F) (W (Proc.devRef .tc main_call0_v12)) (W (Proc.devRef .tc main_call0_v13)) := by
  after_results
  rfl
theorem opsPixS_keeps_main_arg0 (W : Valuation τ sig (Elt F)) : after opsPixS W (Proc.devRef .tc main_arg0) = W (Proc.devRef .tc main_arg0) := by
  after_results
theorem opsPixS_keeps_main_arg1 (W : Valuation τ sig (Elt F)) : after opsPixS W (Proc.devRef .tc main_arg1) = W (Proc.devRef .tc main_arg1) := by
  after_results
theorem opsPixS_keeps_main_v0 (W : Valuation τ sig (Elt F)) : after opsPixS W (Proc.devRef .tc main_v0) = W (Proc.devRef .tc main_v0) := by
  after_results

set_option maxHeartbeats 1000000 in
theorem mid_v4 (W : Valuation τ sig (Elt F)) :
    after opsMid W (Proc.devRef .tc main_v4) = Host.dotGeneral dot_S16x3x3_S16x3x131072_S16x3x131072_2_1_1_2_0_0 none (corner (F := F) (W (Proc.devRef .tc main_arg1))) (W (Proc.devRef .tc main_v2)) := by
  after_results
  rfl
set_option maxHeartbeats 1000000 in
theorem mid_v5 (W : Valuation τ sig (Elt F)) :
    after opsMid W (Proc.devRef .tc main_v5) = (shapeCast _ (W (Proc.devRef .tc main_arg0)) shapeCasts_S16x1x384x1280_S16x1x491520 : (⟨S16x1x491520, .f32⟩ : BufTy).Contents (Elt F)) := by
  after_results
  rfl
theorem opsMid_keeps_main_v0 (W : Valuation τ sig (Elt F)) : after opsMid W (Proc.devRef .tc main_v0) = W (Proc.devRef .tc main_v0) := by
  after_results

set_option maxHeartbeats 1000000 in
theorem depA_idx (W : Valuation τ sig (Elt F)) :
    after opsDepA W (Proc.devRef .tc main_call1_v5) = depIdxOf (F := F) (W (Proc.devRef .tc main_v0)) := by
  after_results
  rfl
theorem opsDepA_keeps_main_v4 (W : Valuation τ sig (Elt F)) : after opsDepA W (Proc.devRef .tc main_v4) = W (Proc.devRef .tc main_v4) := by
  after_results
theorem opsDepA_keeps_main_v5 (W : Valuation τ sig (Elt F)) : after opsDepA W (Proc.devRef .tc main_v5) = W (Proc.devRef .tc main_v5) := by
  after_results

set_option maxHeartbeats 1000000 in
theorem depM_mask (W : Valuation τ sig (Elt F)) :
    after opsDepM W (Proc.devRef .tc main_call1_v12) = depMaskOf (F := F) (W (Proc.devRef .tc main_call1_v5)) := by
  after_results
  simp only [Cert.LibStretch.ofBuf_toBuf]
  refine (eq_of_heq (cast_heq _ _)).trans ?_
  rfl
theorem opsDepM_keeps_main_v4 (W : Valuation τ sig (Elt F)) : after opsDepM W (Proc.devRef .tc main_v4) = W (Proc.devRef .tc main_v4) := by
  after_results
theorem opsDepM_keeps_main_v5 (W : Valuation τ sig (Elt F)) : after opsDepM W (Proc.devRef .tc main_v5) = W (Proc.devRef .tc main_v5) := by
  after_results
theorem opsDepM_keeps_main_call1_v5 (W : Valuation τ sig (Elt F)) : after opsDepM W (Proc.devRef .tc main_call1_v5) = W (Proc.devRef .tc main_call1_v5) := by
  after_results

set_option maxHeartbeats 1000000 in
theorem depG_raw (W : Valuation τ sig (Elt F)) :
    after opsDepG W (Proc.devRef .tc main_call1_v13) = Host.gather gather_S16x1x491520_S16x131072x1_S16x1x131072_1_2_0_0_2_2_111 (W (Proc.devRef .tc main_v5)) (W (Proc.devRef .tc main_call1_v5)) := by
  after_results
  rfl
theorem opsDepG_keeps_main_v4 (W : Valuation τ sig (Elt F)) : after opsDepG W (Proc.devRef .tc main_v4) = W (Proc.devRef .tc main_v4) := by
  after_results
theorem opsDepG_keeps_main_call1_v12 (W : Valuation τ sig (Elt F)) : after opsDepG W (Proc.devRef .tc main_call1_v12) = W (Proc.devRef .tc main_call1_v12) := by
  after_results

set_option maxHeartbeats 1000000 in
theorem depS_v6 (W : Valuation τ sig (Elt F)) :
    after opsDepS W (Proc.devRef .tc main_v6) = fillOutside1 (F := F) (W (Proc.devRef .tc main_call1_v12)) (W (Proc.devRef .tc main_call1_v13)) := by
  after_results
  rfl
theorem opsDepS_keeps_main_v4 (W : Valuation τ sig (Elt F)) : after opsDepS W (Proc.devRef .tc main_v4) = W (Proc.devRef .tc main_v4) := by
  after_results

set_option maxHeartbeats 1000000 in
theorem close_v10 (W : Valuation τ sig (Elt F)) :
    after opsClose W (Proc.devRef .tc main_v10) = joinOnes (F := F) (W (Proc.devRef .tc main_v4)) (W (Proc.devRef .tc main_v6)) := by
  after_results
  rfl

/-- The whole line read back: the result array is `result` of the four argument arrays as the line found them. -/
theorem result_eq (W : Valuation τ sig (Elt F)) :
    after ops W (Proc.devRef .tc main_v10)
      = result (F := F) (W (Proc.devRef .tc main_arg0)) (W (Proc.devRef .tc main_arg1)) (W (Proc.devRef .tc main_arg2)) (W (Proc.devRef .tc main_arg3)) := by
  rw [ops_split]
  simp only [Cert.LibStretch.after_append]
  rw [close_v10, depS_v6, opsDepS_keeps_main_v4, depG_raw, opsDepG_keeps_main_v4, opsDepG_keeps_main_call1_v12, depM_mask, opsDepM_keeps_main_v4, opsDepM_keeps_main_v5, opsDepM_keeps_main_call1_v5, depA_idx, opsDepA_keeps_main_v4, opsDepA_keeps_main_v5, mid_v4, mid_v5, opsMid_keeps_main_v0, pixS_v2, opsPixS_keeps_main_arg0, opsPixS_keeps_main_arg1, opsPixS_keeps_main_v0, pixG_raw, opsPixG_keeps_main_arg0, opsPixG_keeps_main_arg1, opsPixG_keeps_main_v0, opsPixG_keeps_main_call0_v12, pixM_mask, opsPixM_keeps_main_arg0, opsPixM_keeps_main_arg1, opsPixM_keeps_main_arg2, opsPixM_keeps_main_v0, opsPixM_keeps_main_call0_v5, pixA_idx, opsPixA_keeps_main_arg0, opsPixA_keeps_main_arg1, opsPixA_keeps_main_arg2, opsPixA_keeps_main_v0, idx_v0, idx_v1, opsIdx_keeps_main_arg0, opsIdx_keeps_main_arg1, opsIdx_keeps_main_arg2]
  rfl

set_option maxRecDepth 65536 in
/-- No operation of the line writes `main_arg0`. -/
theorem kept_main_arg0 (W : Valuation τ sig (Elt F)) : after ops W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 65536 in
/-- No operation of the line writes `main_arg1`. -/
theorem kept_main_arg1 (W : Valuation τ sig (Elt F)) : after ops W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 65536 in
/-- No operation of the line writes `main_arg2`. -/
theorem kept_main_arg2 (W : Valuation τ sig (Elt F)) : after ops W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 65536 in
/-- No operation of the line writes `main_arg3`. -/
theorem kept_main_arg3 (W : Valuation τ sig (Elt F)) : after ops W (Proc.devRef .tc main_arg3) = W (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

/-- On every device, from any memory with zero counters: every weakly fair execution of the reference terminates with
    the result array at `result` of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (result_eq (F := F) (launchContents m c)),
      (h c main_arg0).trans (kept_main_arg0 (F := F) (launchContents m c)),
      (h c main_arg1).trans (kept_main_arg1 (F := F) (launchContents m c)),
      (h c main_arg2).trans (kept_main_arg2 (F := F) (launchContents m c)),
      (h c main_arg3).trans (kept_main_arg3 (F := F) (launchContents m c))⟩)
    (run_seq scopedRefs_eq scopedSems_eq defs main (fun _ => ops) main_eq (fun _ => ops_sub) m ρ)

end Cert.ReferenceIdeal.RefRun

end
-- ==== Proof.Spec.lean ====
/-
  Back-projection of selected pixels, as functions of three arrays: the upper-left 3×3 corners `inv` of sixteen 4×4
  matrices, the selected homogeneous pixel coordinates `pix` (three rows of 131072 per batch element) and the selected
  depths `dep` (one row of 131072 per batch element).

  For batch element `b`, row `c < 3` and column `k` the result is the depth times the `c`-th coordinate of the ray
  `inv[b] · pix[b, ·, k]`,

      dep[b, 0, k] · ((inv[b, c, 0] · pix[b, 0, k] + inv[b, c, 1] · pix[b, 1, k]) + inv[b, c, 2] · pix[b, 2, k]),

  and row 3 is the constant one. The same function is stated three times: over the result array [16, 4, 131072]
  (`points`); over the same data with the long axis cut into 128 rows of 1024 (`tiled`: column `k` is row `k / 1024`, lane
  `k % 1024`); and over one batch element's tile (`tile`). `tile_eq_tiled` and `tiled_eq_points` say that they are one
  function read through the two re-indexings. Only + and · of extended reals occur, in one fixed order, so nothing here
  needs the data to be finite.
-/
import Idealize.ShloMosaic.PureOps.Ideal
import Idealize.ShloMosaic.Lib.ValueIdx

noncomputable section

namespace Cert.Backproject

open Idealize.ShloMosaic Idealize.ShloMosaic.ValueIdx

/-- The constant one, as the word both programs write. -/
abbrev one : Ideal .f32 := Ideal.ofBits .f32 0x3F800000#32

/-- Coordinate `c` of the ray through column `k` of batch element `b`: row `c` of the 3×3 corner against the three pixel
    coordinates, summed left to right. -/
def ray (inv : FVec Ideal ⟨3, ![16, 3, 3]⟩ .f32) (pix : FVec Ideal ⟨3, ![16, 3, 131072]⟩ .f32)
    (b : Fin 16) (c : Fin 3) (k : Fin 131072) : Ideal .f32 :=
  (inv (ix3 b c (0 : Fin 3)) * pix (ix3 b (0 : Fin 3) k) + inv (ix3 b c (1 : Fin 3)) * pix (ix3 b (1 : Fin 3) k))
    + inv (ix3 b c (2 : Fin 3)) * pix (ix3 b (2 : Fin 3) k)

/-- The result array: depth times ray in rows 0–2, one in row 3. -/
def points (inv : FVec Ideal ⟨3, ![16, 3, 3]⟩ .f32) (pix : FVec Ideal ⟨3, ![16, 3, 131072]⟩ .f32)
    (dep : FVec Ideal ⟨3, ![16, 1, 131072]⟩ .f32) : FVec Ideal ⟨3, ![16, 4, 131072]⟩ .f32 := fun i =>
  if h : (i 1).val < 3 then dep (ix3 (i 0) (0 : Fin 1) (i 2)) * ray inv pix (i 0) ⟨(i 1).val, h⟩ (i 2) else one

/-- The same over arrays whose long axis is cut into 128 rows of 1024 lanes. -/
def tiled (inv : FVec Ideal ⟨3, ![16, 3, 3]⟩ .f32) (pixT : FVec Ideal ⟨4, ![16, 3, 128, 1024]⟩ .f32)
    (depT : FVec Ideal ⟨3, ![16, 128, 1024]⟩ .f32) : FVec Ideal ⟨4, ![16, 4, 128, 1024]⟩ .f32 := fun j =>
  if h : (j 1).val < 3 then
    depT (ix3 (j 0) (j 2) (j 3))
      * ((inv (ix3 (j 0) ⟨(j 1).val, h⟩ (0 : Fin 3)) * pixT (ix4 (j 0) (0 : Fin 3) (j 2) (j 3))
          + inv (ix3 (j 0) ⟨(j 1).val, h⟩ (1 : Fin 3)) * pixT (ix4 (j 0) (1 : Fin 3) (j 2) (j 3)))
        + inv (ix3 (j 0) ⟨(j 1).val, h⟩ (2 : Fin 3)) * pixT (ix4 (j 0) (2 : Fin 3) (j 2) (j 3)))
  else one

/-- One batch element's tile of it. -/
def tile (x0 : FVec Ideal ⟨3, ![1, 3, 3]⟩ .f32) (x1 : FVec Ideal ⟨4, ![1, 3, 128, 1024]⟩ .f32)
    (x2 : FVec Ideal ⟨3, ![1, 128, 1024]⟩ .f32) : FVec Ideal ⟨4, ![1, 4, 128, 1024]⟩ .f32 := fun y =>
  if h : (y 1).val < 3 then
    x2 (ix3 (0 : Fin 1) (y 2) (y 3))
      * ((x0 (ix3 (0 : Fin 1) ⟨(y 1).val, h⟩ (0 : Fin 3)) * x1 (ix4 (0 : Fin 1) (0 : Fin 3) (y 2) (y 3))
          + x0 (ix3 (0 : Fin 1) ⟨(y 1).val, h⟩ (1 : Fin 3)) * x1 (ix4 (0 : Fin 1) (1 : Fin 3) (y 2) (y 3)))
        + x0 (ix3 (0 : Fin 1) ⟨(y 1).val, h⟩ (2 : Fin 3)) * x1 (ix4 (0 : Fin 1) (2 : Fin 3) (y 2) (y 3)))
  else one

/-- A tile whose three inputs are batch element `b`'s slabs of three arrays is batch element `b`'s slab of `tiled`. -/
theorem tile_eq_tiled (inv : FVec Ideal ⟨3, ![16, 3, 3]⟩ .f32) (pixT : FVec Ideal ⟨4, ![16, 3, 128, 1024]⟩ .f32)
    (depT : FVec Ideal ⟨3, ![16, 128, 1024]⟩ .f32) (b : Fin 16)
    (x0 : FVec Ideal ⟨3, ![1, 3, 3]⟩ .f32) (x1 : FVec Ideal ⟨4, ![1, 3, 128, 1024]⟩ .f32)
    (x2 : FVec Ideal ⟨3, ![1, 128, 1024]⟩ .f32)
    (h0 : ∀ (c j : Fin 3), x0 (ix3 (0 : Fin 1) c j) = inv (ix3 b c j))
    (h1 : ∀ (j : Fin 3) (r : Fin 128) (l : Fin 1024), x1 (ix4 (0 : Fin 1) j r l) = pixT (ix4 b j r l))
    (h2 : ∀ (r : Fin 128) (l : Fin 1024), x2 (ix3 (0 : Fin 1) r l) = depT (ix3 b r l))
    (c : Fin 4) (r : Fin 128) (l : Fin 1024) :
    tile x0 x1 x2 (ix4 (0 : Fin 1) c r l) = tiled inv pixT depT (ix4 b c r l) := by
  unfold tile tiled
  by_cases h : c.val < 3
  · rw [dif_pos (show ((ix4 (0 : Fin 1) c r l) 1).val < 3 from h), dif_pos (show ((ix4 b c r l) 1).val < 3 from h)]
    show x2 (ix3 0 r l) * ((x0 (ix3 0 ⟨c.val, h⟩ 0) * x1 (ix4 0 0 r l) + x0 (ix3 0 ⟨c.val, h⟩ 1) * x1 (ix4 0 1 r l))
        + x0 (ix3 0 ⟨c.val, h⟩ 2) * x1 (ix4 0 2 r l))
      = depT (ix3 b r l) * ((inv (ix3 b ⟨c.val, h⟩ 0) * pixT (ix4 b 0 r l) + inv (ix3 b ⟨c.val, h⟩ 1) * pixT (ix4 b 1 r l))
        + inv (ix3 b ⟨c.val, h⟩ 2) * pixT (ix4 b 2 r l))
    rw [h0, h0, h0, h1, h1, h1, h2]
  · rw [dif_neg (show ¬ ((ix4 (0 : Fin 1) c r l) 1).val < 3 from h), dif_neg (show ¬ ((ix4 b c r l) 1).val < 3 from h)]

/-- `tiled` over the cut arrays is `points` over the uncut ones: row `r`, lane `l` is column `r · 1024 + l`. -/
theorem tiled_eq_points (inv : FVec Ideal ⟨3, ![16, 3, 3]⟩ .f32) (pix : FVec Ideal ⟨3, ![16, 3, 131072]⟩ .f32)
    (dep : FVec Ideal ⟨3, ![16, 1, 131072]⟩ .f32) (pixT : FVec Ideal ⟨4, ![16, 3, 128, 1024]⟩ .f32)
    (depT : FVec Ideal ⟨3, ![16, 128, 1024]⟩ .f32)
    (h1 : ∀ (b : Fin 16) (j : Fin 3) (r : Fin 128) (l : Fin 1024) (k : Fin 131072), k.val = r.val * 1024 + l.val →
      pixT (ix4 b j r l) = pix (ix3 b j k))
    (h2 : ∀ (b : Fin 16) (r : Fin 128) (l : Fin 1024) (k : Fin 131072), k.val = r.val * 1024 + l.val →
      depT (ix3 b r l) = dep (ix3 b (0 : Fin 1) k))
    (b : Fin 16) (c : Fin 4) (r : Fin 128) (l : Fin 1024) (k : Fin 131072) (hk : k.val = r.val * 1024 + l.val) :
    tiled inv pixT depT (ix4 b c r l) = points inv pix dep (ix3 b c k) := by
  unfold tiled points ray
  by_cases h : c.val < 3
  · rw [dif_pos (show ((ix4 b c r l) 1).val < 3 from h), dif_pos (show ((ix3 b c k) 1).val < 3 from h)]
    show depT (ix3 b r l) * ((inv (ix3 b ⟨c.val, h⟩ 0) * pixT (ix4 b 0 r l) + inv (ix3 b ⟨c.val, h⟩ 1) * pixT (ix4 b 1 r l))
        + inv (ix3 b ⟨c.val, h⟩ 2) * pixT (ix4 b 2 r l))
      = dep (ix3 b 0 k) * ((inv (ix3 b ⟨c.val, h⟩ 0) * pix (ix3 b 0 k) + inv (ix3 b ⟨c.val, h⟩ 1) * pix (ix3 b 1 k))
        + inv (ix3 b ⟨c.val, h⟩ 2) * pix (ix3 b 2 k))
    rw [h1 b 0 r l k hk, h1 b 1 r l k hk, h1 b 2 r l k hk, h2 b r l k hk]
  · rw [dif_neg (show ¬ ((ix4 b c r l) 1).val < 3 from h), dif_neg (show ¬ ((ix3 b c k) 1).val < 3 from h)]

end Cert.Backproject

end
-- ==== Proof.ReferenceFormula.lean ====
/-
  The last operations of the reference program, read one entry at a time.

  Once the selected pixel coordinates `pix`, the selected depths `dep` and the 3×3 corners `inv` of the matrices are in
  hand, the reference program contracts `inv` with `pix` over the coordinate they share (for each batch element a 3×3
  matrix times a 3×131072 matrix), repeats the single row of depths three times, multiplies the two arrays entry by
  entry, and puts a row of ones under the three rows. So entry (b, c, k) of what it returns is, for c < 3,

      dep[b, 0, k] · ((inv[b, c, 0] · pix[b, 0, k] + inv[b, c, 1] · pix[b, 1, k]) + inv[b, c, 2] · pix[b, 2, k]),

  the three products added from the left, and the constant one for c = 3. That is the array the specification names
  `points`: `closing_eq_points` says so, `contraction_apply` is the contraction alone and `closing_apply` the entry (b, c, k).
-/
import proofs.«149385_j18253611008840_2_alg».proof.Proof.Gen.ReferenceIdeal
import proofs.«149385_j18253611008840_2_alg».proof.Proof.Spec
import Idealize.ShloMosaic.Lib.Pipeline.Value
import Idealize.ShloMosaic.Lib.ValueIdx
import Idealize.ShloMosaic.Lib.StackMember
import Idealize.ShloMosaic.PureOps.Ideal.Laws

namespace Cert.ReferenceIdeal.RefValue
open Cert.ReferenceIdeal Cert.ReferenceIdeal.Gen Idealize.ShloMosaic Idealize.ShloMosaic.ValueIdx

/-- The contraction at entry (b, c, k): row `c` of batch element `b`'s 3×3 corner against the three coordinates of
    pixel `k`. The sum over the shared coordinate has three terms, and a sum over three indices is by definition the
    first two terms added, then the third: the order the specification's `ray` is written in. -/
theorem contraction_apply (inv : FVec Ideal S16x3x3 .f32) (pix : FVec Ideal S16x3x131072 .f32)
    (b : Fin 16) (c : Fin 3) (k : Fin 131072) :
    Host.dotGeneral dot_S16x3x3_S16x3x131072_S16x3x131072_2_1_1_2_0_0 none inv pix (ix3 b c k)
      = Cert.Backproject.ray inv pix b c k := by
  have h := StackMember.dotGeneral_stack_apply (G := 16) (m := 3) (n := 131072) (k := 3)
    dot_S16x3x3_S16x3x131072_S16x3x131072_2_1_1_2_0_0_wf none inv pix b c k
  rw [Fin.sum_univ_three] at h
  exact h

/-- Entry (b, c, k) of the reference's result, for every row `c` of the four. Rows 0–2 come from the first piece of
    the concatenation, where the repeated depth row reads `dep` at (b, 0, k) whatever the row; row 3 is the second
    piece's row 0, a scalar constant repeated everywhere. -/
theorem closing_apply (inv : FVec Ideal S16x3x3 .f32) (pix : FVec Ideal S16x3x131072 .f32)
    (dep : FVec Ideal S16x1x131072 .f32) (b : Fin 16) (c : Fin 4) (k : Fin 131072) :
    concatenate S16x4x131072 1
      [⟨S16x3x131072, mulf (broadcastInDim S16x3x131072 ![0, 1, 2] bcast_S16x1x131072_S16x3x131072_0_1_2 dep)
          (Host.dotGeneral dot_S16x3x3_S16x3x131072_S16x3x131072_2_1_1_2_0_0 none inv pix)⟩,
       ⟨S16x1x131072, broadcastInDim S16x1x131072 ![] bcast_S_S16x1x131072 (constant (F := Ideal) S_ .f32 0x3F800000#32)⟩]
      concatenates_S16x3x131072_S16x1x131072_S16x4x131072_d1 (ix3 b c k)
    = Cert.Backproject.points inv pix dep (ix3 b c k) := by
  by_cases hc : c.val < 3
  · -- a row of the first piece: the same coordinates, the row now an index below 3
    refine Eq.trans (concatenate_pair_apply_left (t := S16x4x131072) (s₁ := S16x3x131072) (s₂ := S16x1x131072)
      (1 : Fin S16x4x131072.rank) _ _ _ (ix3 b c k) rfl (ix3 b (⟨c.val, hc⟩ : Fin 3) k) ?_) ?_
    · intro a
      match a with
      | ⟨0, _⟩ => rfl
      | ⟨1, _⟩ => rfl
      | ⟨2, _⟩ => rfl
    · rw [mulf_apply, contraction_apply,
        broadcastInDim_apply ![0, 1, 2] _ dep (ix3 b (⟨c.val, hc⟩ : Fin 3) k) (ix3 b (0 : Fin 1) k) (by
          intro a
          match a with
          | ⟨0, _⟩ => rfl
          | ⟨1, _⟩ => rfl
          | ⟨2, _⟩ => rfl)]
      unfold Cert.Backproject.points
      rw [dif_pos (show ((ix3 b c k) 1).val < 3 from hc)]
  · -- the last row: row 0 of the second piece, since 0 + 3 = 3
    have hc3 : c.val = 3 := by omega
    refine Eq.trans (concatenate_pair_apply_right (t := S16x4x131072) (s₁ := S16x3x131072) (s₂ := S16x1x131072)
      (1 : Fin S16x4x131072.rank) _ _ _ (ix3 b c k) rfl rfl (ix3 b (0 : Fin 1) k) ?_ ?_) ?_
    · intro a ha
      match a, ha with
      | ⟨0, _⟩, _ => rfl
      | ⟨1, _⟩, ha => exact absurd rfl ha
      | ⟨2, _⟩, _ => rfl
    · show 0 + 3 = c.val
      omega
    · rw [broadcastInDim_apply ![] _ _ (ix3 b (0 : Fin 1) k) ix0 (fun a => a.elim0), constant_apply]
      unfold Cert.Backproject.points
      rw [dif_neg (show ¬ ((ix3 b c k) 1).val < 3 from hc)]

/-- The reference's closing operations compute the specification's `points`: the two arrays agree at every index, an
    index being its three coordinates. -/
theorem closing_eq_points (inv : FVec Ideal S16x3x3 .f32) (pix : FVec Ideal S16x3x131072 .f32)
    (dep : FVec Ideal S16x1x131072 .f32) :
    concatenate S16x4x131072 1
      [⟨S16x3x131072, mulf (broadcastInDim S16x3x131072 ![0, 1, 2] bcast_S16x1x131072_S16x3x131072_0_1_2 dep)
          (Host.dotGeneral dot_S16x3x3_S16x3x131072_S16x3x131072_2_1_1_2_0_0 none inv pix)⟩,
       ⟨S16x1x131072, broadcastInDim S16x1x131072 ![] bcast_S_S16x1x131072 (constant (F := Ideal) S_ .f32 0x3F800000#32)⟩]
      concatenates_S16x3x131072_S16x1x131072_S16x4x131072_d1
    = Cert.Backproject.points inv pix dep := by
  funext i
  rw [eq_ix3 i]
  exact closing_apply inv pix dep (i 0) (i 1) (i 2)

end Cert.ReferenceIdeal.RefValue
-- ==== Proof.KernelTile.lean ====
/-
  What the kernel body leaves in its output buffer at one grid point.

  The body reads a 3×3 matrix A (block [1, 3, 3]), three pixel coordinates p₀, p₁, p₂ (block [1, 3, 128, 1024]) and a
  depth d (block [1, 128, 1024]). For c = 0, 1, 2 it forms, at every row r and lane l,

      d[r, l] · ((A[c, 0] · p₀[r, l] + A[c, 1] · p₁[r, l]) + A[c, 2] · p₂[r, l]),

  and writes it to row c of the [1, 4, 128, 1024] output block; row 3 receives the constant one. The four writes are
  disjoint and together fill the block, so the block afterwards is the function whose value at (0, c, r, l) is the value
  written to row c at (r, l). That function is the specification's `tile`.

  The proof reads each intermediate array at one index. Dropping or adding axes of extent one does not move an element
  (its row-major position is unchanged); a one-row slab at offset j of a three-row array is row j; a 1×1 corner at
  offset (c, j) of the matrix holds A[c, j]; a broadcast scalar has the same value everywhere; and at the ideal instance
  products and sums of arrays are taken entry by entry. The order of the additions is the specification's, so no
  arithmetic law is used.
-/
import proofs.«149385_j18253611008840_2_alg».proof.Proof.Gen.KernelIdeal.Frame
import proofs.«149385_j18253611008840_2_alg».proof.Proof.Spec
import Idealize.ShloMosaic.Lib.Pipeline.Value
import Idealize.ShloMosaic.Lib.ValueIdx
import Idealize.ShloMosaic.Lib.ValueLayout

noncomputable section

namespace Cert.KernelIdeal.TileValue
open Cert.KernelIdeal Cert.KernelIdeal.Gen Idealize.ShloMosaic Idealize.ShloMosaic.ValueIdx

/-- Entry (c, j) of the 3×3 matrix, read through the dropped batch axis, the 1×1 corner at (c, j) and its one entry. -/
theorem corner_apply (x0 : Vec Ideal S1x3x3 .f32) (off : Fin S3x3.rank → Nat) (h : S3x3.Slices off S1x1)
    (hp : ∀ a, (![0, 0] : Fin 2 → Nat) a < S1x1.size a) (c j : Fin 3) (hc : off 0 = c.val) (hj : off 1 = j.val) :
    extractAt ![0, 0] (extractStridedSlice S1x1 off (k0_pay5 x0) h) hp = x0 (ix3 (0 : Fin 1) c j) := by
  unfold extractAt k0_pay5
  refine (extractStridedSlice_apply off _ h _ (ix2 c j) (fun a => ?_)).trans ?_
  · match a with
    | ⟨0, _⟩ => show c.val = off 0 + 0; omega
    | ⟨1, _⟩ => show j.val = off 1 + 0; omega
  · exact shapeCast_1ab_ab_apply x0 _ c j

/-- The depth block with its batch axis dropped. -/
theorem depth_apply (x2 : Vec Ideal S1x128x1024 .f32) (r : Fin 128) (l : Fin 1024) :
    k0_pay8 x2 (ix2 r l) = x2 (ix3 (0 : Fin 1) r l) := by
  unfold k0_pay8
  exact shapeCast_1ab_ab_apply x2 _ r l

/-- Row j of the pixel block: batch axis dropped, the one-row slab at offset j, its unit axis dropped. -/
theorem row_apply (x1 : Vec Ideal S1x3x128x1024 .f32) (off : Fin S3x128x1024.rank → Nat)
    (h : S3x128x1024.Slices off S1x128x1024) (hc : S1x128x1024.ShapeCasts S128x1024)
    (j : Fin 3) (h0 : off 0 = j.val) (h1 : off 1 = 0) (h2 : off 2 = 0) (r : Fin 128) (l : Fin 1024) :
    shapeCast S128x1024 (extractStridedSlice S1x128x1024 off (k0_pay7 x1) h) hc (ix2 r l)
      = x1 (ix4 (0 : Fin 1) j r l) := by
  refine (shapeCast_1ab_ab_apply _ hc r l).trans ?_
  refine (extractStridedSlice_apply off _ h _ (ix3 j r l) (fun a => ?_)).trans ?_
  · match a with
    | ⟨0, _⟩ => show j.val = off 0 + 0; omega
    | ⟨1, _⟩ => show r.val = off 1 + r.val; omega
    | ⟨2, _⟩ => show l.val = off 2 + l.val; omega
  · unfold k0_pay7
    exact shapeCast_1abc_abc_apply x1 _ j r l

theorem pay9_apply (x1 : Vec Ideal S1x3x128x1024 .f32) (r : Fin 128) (l : Fin 1024) :
    k0_pay9 x1 (ix2 r l) = x1 (ix4 (0 : Fin 1) (0 : Fin 3) r l) :=
  row_apply x1 ![0, 0, 0] Facts₀.slices_S3x128x1024_o0_0_0_S1x128x1024 Facts₀.shapeCasts_S1x128x1024_S128x1024 0 rfl rfl rfl r l

theorem pay10_apply (x1 : Vec Ideal S1x3x128x1024 .f32) (r : Fin 128) (l : Fin 1024) :
    k0_pay10 x1 (ix2 r l) = x1 (ix4 (0 : Fin 1) (1 : Fin 3) r l) :=
  row_apply x1 ![1, 0, 0] Facts₀.slices_S3x128x1024_o1_0_0_S1x128x1024 Facts₀.shapeCasts_S1x128x1024_S128x1024 1 rfl rfl rfl r l

theorem pay11_apply (x1 : Vec Ideal S1x3x128x1024 .f32) (r : Fin 128) (l : Fin 1024) :
    k0_pay11 x1 (ix2 r l) = x1 (ix4 (0 : Fin 1) (2 : Fin 3) r l) :=
  row_apply x1 ![2, 0, 0] Facts₀.slices_S3x128x1024_o2_0_0_S1x128x1024 Facts₀.shapeCasts_S1x128x1024_S128x1024 2 rfl rfl rfl r l

/-- Row 0 of the matrix against the three pixel coordinates, summed left to right. -/
theorem pay12_apply (x0 : Vec Ideal S1x3x3 .f32) (x1 : Vec Ideal S1x3x128x1024 .f32) (r : Fin 128) (l : Fin 1024) :
    k0_pay12 x0 x1 (ix2 r l)
      = (x0 (ix3 (0 : Fin 1) (0 : Fin 3) (0 : Fin 3)) * x1 (ix4 (0 : Fin 1) (0 : Fin 3) r l)
          + x0 (ix3 (0 : Fin 1) (0 : Fin 3) (1 : Fin 3)) * x1 (ix4 (0 : Fin 1) (1 : Fin 3) r l))
        + x0 (ix3 (0 : Fin 1) (0 : Fin 3) (2 : Fin 3)) * x1 (ix4 (0 : Fin 1) (2 : Fin 3) r l) :=
  congrArg₂ (· + ·)
    (congrArg₂ (· + ·)
      (congrArg₂ (· * ·) (corner_apply x0 ![0, 0] Facts₀.slices_S3x3_o0_0_S1x1 Facts₀.inpos_S1x1_p0_0 0 0 rfl rfl) (pay9_apply x1 r l))
      (congrArg₂ (· * ·) (corner_apply x0 ![0, 1] Facts₀.slices_S3x3_o0_1_S1x1 Facts₀.inpos_S1x1_p0_0 0 1 rfl rfl) (pay10_apply x1 r l)))
    (congrArg₂ (· * ·) (corner_apply x0 ![0, 2] Facts₀.slices_S3x3_o0_2_S1x1 Facts₀.inpos_S1x1_p0_0 0 2 rfl rfl) (pay11_apply x1 r l))

/-- Row 1 likewise. -/
theorem pay13_apply (x0 : Vec Ideal S1x3x3 .f32) (x1 : Vec Ideal S1x3x128x1024 .f32) (r : Fin 128) (l : Fin 1024) :
    k0_pay13 x0 x1 (ix2 r l)
      = (x0 (ix3 (0 : Fin 1) (1 : Fin 3) (0 : Fin 3)) * x1 (ix4 (0 : Fin 1) (0 : Fin 3) r l)
          + x0 (ix3 (0 : Fin 1) (1 : Fin 3) (1 : Fin 3)) * x1 (ix4 (0 : Fin 1) (1 : Fin 3) r l))
        + x0 (ix3 (0 : Fin 1) (1 : Fin 3) (2 : Fin 3)) * x1 (ix4 (0 : Fin 1) (2 : Fin 3) r l) :=
  congrArg₂ (· + ·)
    (congrArg₂ (· + ·)
      (congrArg₂ (· * ·) (corner_apply x0 ![1, 0] Facts₀.slices_S3x3_o1_0_S1x1 Facts₀.inpos_S1x1_p0_0 1 0 rfl rfl) (pay9_apply x1 r l))
      (congrArg₂ (· * ·) (corner_apply x0 ![1, 1] Facts₀.slices_S3x3_o1_1_S1x1 Facts₀.inpos_S1x1_p0_0 1 1 rfl rfl) (pay10_apply x1 r l)))
    (congrArg₂ (· * ·) (corner_apply x0 ![1, 2] Facts₀.slices_S3x3_o1_2_S1x1 Facts₀.inpos_S1x1_p0_0 1 2 rfl rfl) (pay11_apply x1 r l))

/-- Row 2, whose three products reach the last store as separate values. -/
theorem pay14_apply (x0 : Vec Ideal S1x3x3 .f32) (x1 : Vec Ideal S1x3x128x1024 .f32) (r : Fin 128) (l : Fin 1024) :
    k0_pay14 x0 x1 (ix2 r l) = x0 (ix3 (0 : Fin 1) (2 : Fin 3) (0 : Fin 3)) * x1 (ix4 (0 : Fin 1) (0 : Fin 3) r l) :=
  congrArg₂ (· * ·) (corner_apply x0 ![2, 0] Facts₀.slices_S3x3_o2_0_S1x1 Facts₀.inpos_S1x1_p0_0 2 0 rfl rfl) (pay9_apply x1 r l)

theorem pay15_apply (x0 : Vec Ideal S1x3x3 .f32) (r : Fin 128) (l : Fin 1024) :
    k0_pay15 x0 (ix2 r l) = x0 (ix3 (0 : Fin 1) (2 : Fin 3) (1 : Fin 3)) :=
  corner_apply x0 ![2, 1] Facts₀.slices_S3x3_o2_1_S1x1 Facts₀.inpos_S1x1_p0_0 2 1 rfl rfl

theorem pay6_apply (x0 : Vec Ideal S1x3x3 .f32) :
    k0_pay6 x0 = x0 (ix3 (0 : Fin 1) (2 : Fin 3) (2 : Fin 3)) :=
  corner_apply x0 ![2, 2] Facts₀.slices_S3x3_o2_2_S1x1 Facts₀.inpos_S1x1_p0_0 2 2 rfl rfl

/-- A [128, 1024] array stored as a [1, 1, 128, 1024] block keeps its row and lane. -/
theorem cast_apply (v : FVec Ideal S128x1024 .f32) (h : S128x1024.ShapeCasts S1x1x128x1024)
    (u w : Fin 1) (r : Fin 128) (l : Fin 1024) :
    shapeCast S1x1x128x1024 v h (ix4 u w r l) = v (ix2 r l) := by
  refine shapeCast_apply v h _ _ ?_
  rw [Shape.rowMajor_val_two, Shape.rowMajor_val_four]
  show r.val * 1024 + l.val = ((u.val * 1 + w.val) * 128 + r.val) * 1024 + l.val
  have hu := u.isLt
  have hw := w.isLt
  omega

/-- The store rectangle of output row c places local index (·, ·, r, l) at (0, c, r, l). -/
theorem emb_row (c : Nat) (hc : c < 4)
    (inb : ∀ a, (![0, c, 0, 0] : Fin 4 → Nat) a + S1x1x128x1024.size a ≤ S1x4x128x1024.size a)
    (u w : Fin 1) (r : Fin 128) (l : Fin 1024) :
    (Rect.unit (s := S1x4x128x1024) ![0, c, 0, 0] S1x1x128x1024.size inb).emb (ix4 u w r l)
      = ix4 (0 : Fin 1) (⟨c, hc⟩ : Fin 4) r l := by
  funext a
  refine Fin.ext ?_
  rw [Rect.emb_apply]
  have hu := u.isLt
  have hw := w.isLt
  match a with
  | ⟨0, _⟩ => show 0 + 1 * u.val = 0; omega
  | ⟨1, _⟩ => show c + 1 * w.val = c; omega
  | ⟨2, _⟩ => show 0 + 1 * r.val = r.val; omega
  | ⟨3, _⟩ => show 0 + 1 * l.val = l.val; omega

theorem ld0 (x0 : Vec Ideal S1x3x3 .f32) : View.ld x0 r0_0 = x0 :=
  View.ld_unit_zero (S := S1x3x3)
    (funext fun a => match a with | ⟨0, _⟩ => rfl | ⟨1, _⟩ => rfl | ⟨2, _⟩ => rfl) _ x0

theorem ld1 (x1 : Vec Ideal S1x3x128x1024 .f32) : View.ld x1 r0_1 = x1 :=
  View.ld_unit_zero (S := S1x3x128x1024)
    (funext fun a => match a with | ⟨0, _⟩ => rfl | ⟨1, _⟩ => rfl | ⟨2, _⟩ => rfl | ⟨3, _⟩ => rfl) _ x1

theorem ld2 (x2 : Vec Ideal S1x128x1024 .f32) : View.ld x2 r0_2 = x2 :=
  View.ld_unit_zero (S := S1x128x1024)
    (funext fun a => match a with | ⟨0, _⟩ => rfl | ⟨1, _⟩ => rfl | ⟨2, _⟩ => rfl) _ x2

/-- The specification's tile in rows 0–2 … -/
theorem tile_row (x0 : Vec Ideal S1x3x3 .f32) (x1 : Vec Ideal S1x3x128x1024 .f32) (x2 : Vec Ideal S1x128x1024 .f32)
    (c : Fin 3) (hc : c.val < 4) (r : Fin 128) (l : Fin 1024) :
    Cert.Backproject.tile x0 x1 x2 (ix4 (0 : Fin 1) (⟨c.val, hc⟩ : Fin 4) r l)
      = x2 (ix3 (0 : Fin 1) r l)
        * ((x0 (ix3 (0 : Fin 1) c (0 : Fin 3)) * x1 (ix4 (0 : Fin 1) (0 : Fin 3) r l)
            + x0 (ix3 (0 : Fin 1) c (1 : Fin 3)) * x1 (ix4 (0 : Fin 1) (1 : Fin 3) r l))
          + x0 (ix3 (0 : Fin 1) c (2 : Fin 3)) * x1 (ix4 (0 : Fin 1) (2 : Fin 3) r l)) := by
  unfold Cert.Backproject.tile
  rw [dif_pos (show ((ix4 (0 : Fin 1) (⟨c.val, hc⟩ : Fin 4) r l) 1).val < 3 from c.isLt)]

/-- … and in row 3. -/
theorem tile_last (x0 : Vec Ideal S1x3x3 .f32) (x1 : Vec Ideal S1x3x128x1024 .f32) (x2 : Vec Ideal S1x128x1024 .f32)
    (h3 : 3 < 4) (r : Fin 128) (l : Fin 1024) :
    Cert.Backproject.tile x0 x1 x2 (ix4 (0 : Fin 1) (⟨3, h3⟩ : Fin 4) r l) = Cert.Backproject.one := by
  unfold Cert.Backproject.tile
  rw [dif_neg (show ¬ ((ix4 (0 : Fin 1) (⟨3, h3⟩ : Fin 4) r l) 1).val < 3 from Nat.lt_irrefl 3)]

/-- Output row 0 at (r, l): depth times row 0 of the matrix against the pixel. -/
theorem piece0 (x0 : Vec Ideal S1x3x3 .f32) (x1 : Vec Ideal S1x3x128x1024 .f32) (x2 : Vec Ideal S1x128x1024 .f32)
    (u w : Fin 1) (r : Fin 128) (l : Fin 1024) :
    k0_pay1 (k0_pay8 (View.ld x2 r0_2)) (k0_pay12 (View.ld x0 r0_0) (View.ld x1 r0_1)) (ix4 u w r l)
      = Cert.Backproject.tile x0 x1 x2 (r0_3.emb (ix4 u w r l)) := by
  rw [ld0, ld1, ld2]
  refine Eq.trans ?_ (congrArg (Cert.Backproject.tile x0 x1 x2) (emb_row 0 (by decide) _ u w r l)).symm
  refine Eq.trans ?_ (tile_row x0 x1 x2 0 (by decide) r l).symm
  unfold k0_pay1
  refine (cast_apply _ _ u w r l).trans ?_
  exact congrArg₂ (· * ·) (depth_apply x2 r l) (pay12_apply x0 x1 r l)

/-- Output row 1 at (r, l). -/
theorem piece1 (x0 : Vec Ideal S1x3x3 .f32) (x1 : Vec Ideal S1x3x128x1024 .f32) (x2 : Vec Ideal S1x128x1024 .f32)
    (u w : Fin 1) (r : Fin 128) (l : Fin 1024) :
    k0_pay2 (k0_pay8 (View.ld x2 r0_2)) (k0_pay13 (View.ld x0 r0_0) (View.ld x1 r0_1)) (ix4 u w r l)
      = Cert.Backproject.tile x0 x1 x2 (r0_4.emb (ix4 u w r l)) := by
  rw [ld0, ld1, ld2]
  refine Eq.trans ?_ (congrArg (Cert.Backproject.tile x0 x1 x2) (emb_row 1 (by decide) _ u w r l)).symm
  refine Eq.trans ?_ (tile_row x0 x1 x2 1 (by decide) r l).symm
  unfold k0_pay2
  refine (cast_apply _ _ u w r l).trans ?_
  exact congrArg₂ (· * ·) (depth_apply x2 r l) (pay13_apply x0 x1 r l)

/-- Output row 2 at (r, l): here the sum is assembled at the store from the separate products. -/
theorem piece2 (x0 : Vec Ideal S1x3x3 .f32) (x1 : Vec Ideal S1x3x128x1024 .f32) (x2 : Vec Ideal S1x128x1024 .f32)
    (u w : Fin 1) (r : Fin 128) (l : Fin 1024) :
    k0_pay3 (k0_pay6 (View.ld x0 r0_0)) (k0_pay8 (View.ld x2 r0_2)) (k0_pay10 (View.ld x1 r0_1)) (k0_pay11 (View.ld x1 r0_1))
        (k0_pay14 (View.ld x0 r0_0) (View.ld x1 r0_1)) (k0_pay15 (View.ld x0 r0_0)) (ix4 u w r l)
      = Cert.Backproject.tile x0 x1 x2 (r0_5.emb (ix4 u w r l)) := by
  rw [ld0, ld1, ld2]
  refine Eq.trans ?_ (congrArg (Cert.Backproject.tile x0 x1 x2) (emb_row 2 (by decide) _ u w r l)).symm
  refine Eq.trans ?_ (tile_row x0 x1 x2 2 (by decide) r l).symm
  unfold k0_pay3
  refine (cast_apply _ _ u w r l).trans ?_
  exact congrArg₂ (· * ·) (depth_apply x2 r l)
    (congrArg₂ (· + ·)
      (congrArg₂ (· + ·) (pay14_apply x0 x1 r l) (congrArg₂ (· * ·) (pay15_apply x0 r l) (pay10_apply x1 r l)))
      (congrArg₂ (· * ·) (pay6_apply x0) (pay11_apply x1 r l)))

/-- Output row 3: the constant one. -/
theorem piece3 (x0 : Vec Ideal S1x3x3 .f32) (x1 : Vec Ideal S1x3x128x1024 .f32) (x2 : Vec Ideal S1x128x1024 .f32)
    (u w : Fin 1) (r : Fin 128) (l : Fin 1024) :
    k0_pay4 (F := Ideal) (ix4 u w r l) = Cert.Backproject.tile x0 x1 x2 (r0_6.emb (ix4 u w r l)) := by
  refine Eq.trans ?_ (congrArg (Cert.Backproject.tile x0 x1 x2) (emb_row 3 (by decide) _ u w r l)).symm
  refine Eq.trans ?_ (tile_last x0 x1 x2 (by decide) r l).symm
  unfold k0_pay4
  refine (cast_apply _ _ u w r l).trans ?_
  rfl

/-- After the body the output buffer holds the specification's tile of the three input blocks: the four stores cover
    the buffer, and each store's value at a local index is the tile at the index its rectangle places it at. -/
theorem out_eq_tile (x0 : Vec Ideal S1x3x3 .f32) (x1 : Vec Ideal S1x3x128x1024 .f32) (x2 : Vec Ideal S1x128x1024 .f32) :
    Gen.out0_3 (F := Ideal) x0 x1 x2 = Cert.Backproject.tile x0 x1 x2 := by
  funext y
  unfold Gen.out0_3
  refine View.canon_apply_of_pieces (Val := Elt Ideal) (S := S1x4x128x1024) (e := .f32) (Cert.Backproject.tile x0 x1 x2) _ ?_ y
    (cover0_3 _ _ _ _ y)
  intro p hp x
  simp only [List.mem_cons, List.mem_nil_iff, or_false] at hp
  rcases hp with rfl | rfl | rfl | rfl
  all_goals
    obtain ⟨u, w, r, l, rfl⟩ : ∃ (u w : Fin 1) (r : Fin 128) (l : Fin 1024), x = ix4 u w r l :=
      ⟨x 0, x 1, x 2, x 3, eq_ix4 x⟩
  · exact piece3 x0 x1 x2 u w r l
  · exact piece2 x0 x1 x2 u w r l
  · exact piece1 x0 x1 x2 u w r l
  · exact piece0 x0 x1 x2 u w r l

end Cert.KernelIdeal.TileValue

end
-- ==== Proof.KernelArray.lean ====
/-
  The kernel's output array after the run.

  The grid has sixteen points, one per batch element. At point `t` every window's block is batch element `t`'s slab of
  its array: the 3×3 corner, the [3, 128, 1024] pixel coordinates, the [128, 1024] depths, and the [4, 128, 1024]
  output. What the body leaves in the output block is the specification's `tile` of the three input blocks (the tile
  module), and a tile of three slabs is the slab of `tiled` of the three arrays; the sixteen output slabs cover the
  output array, each index lying in the slab of its own batch element. So the array ends at `tiled` of the three arrays
  as the region found them.
-/
import proofs.«149385_j18253611008840_2_alg».proof.Proof.Gen.KernelIdeal.Frame
import proofs.«149385_j18253611008840_2_alg».proof.Proof.KernelTile
import proofs.«149385_j18253611008840_2_alg».proof.Proof.Spec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The printed index maps, decided over the sixteen points: every window's block index at point `t` is `t` on the batch
    axis and zero on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

theorem point_lt (t : Fin cfg0.N) : t.val < 16 := lt_of_lt_of_eq t.isLt N_0

/-- Window 0's block at point `t` of any array [16, 3, 3] is batch element `t`'s corner. -/
theorem corner_blk (t : Fin cfg0.N) (A : Vec Ideal S16x3x3 .f32) (c' j : Fin 3) :
    ((cfg0.win 0).blk t).view.read (Elt Ideal) A (ix3 (0 : Fin 1) c' j) = A (ix3 (⟨t.val, point_lt t⟩ : Fin 16) c' j) := by
  obtain ⟨a0, a1, a2, -⟩ := idx_facts t
  show A (((cfg0.win 0).blk t).view.emb (ix3 (0 : Fin 1) c' j)) = _
  refine congrArg A (funext fun a => Fin.ext ?_)
  match a with
  | ⟨0, _⟩ => show win0_0.index t (0 : Fin 3) * 1 + 1 * 0 = t.val; omega
  | ⟨1, _⟩ => show win0_0.index t (1 : Fin 3) * 3 + 1 * c'.val = c'.val; omega
  | ⟨2, _⟩ => show win0_0.index t (2 : Fin 3) * 3 + 1 * j.val = j.val; omega

/-- Window 1's block at point `t` of any array [16, 3, 128, 1024] is batch element `t`'s three coordinate planes. -/
theorem pix_blk (t : Fin cfg0.N) (A : Vec Ideal S16x3x128x1024 .f32) (j : Fin 3) (r : Fin 128) (l : Fin 1024) :
    ((cfg0.win 1).blk t).view.read (Elt Ideal) A (ix4 (0 : Fin 1) j r l) = A (ix4 (⟨t.val, point_lt t⟩ : Fin 16) j r l) := by
  obtain ⟨-, -, -, b0, b1, b2, b3, -⟩ := idx_facts t
  show A (((cfg0.win 1).blk t).view.emb (ix4 (0 : Fin 1) j r l)) = _
  refine congrArg A (funext fun a => Fin.ext ?_)
  match a with
  | ⟨0, _⟩ => show win0_1.index t (0 : Fin 4) * 1 + 1 * 0 = t.val; omega
  | ⟨1, _⟩ => show win0_1.index t (1 : Fin 4) * 3 + 1 * j.val = j.val; omega
  | ⟨2, _⟩ => show win0_1.index t (2 : Fin 4) * 128 + 1 * r.val = r.val; omega
  | ⟨3, _⟩ => show win0_1.index t (3 : Fin 4) * 1024 + 1 * l.val = l.val; omega

/-- Window 2's block at point `t` of any array [16, 128, 1024] is batch element `t`'s depth plane. -/
theorem dep_blk (t : Fin cfg0.N) (A : Vec Ideal S16x128x1024 .f32) (r : Fin 128) (l : Fin 1024) :
    ((cfg0.win 2).blk t).view.read (Elt Ideal) A (ix3 (0 : Fin 1) r l) = A (ix3 (⟨t.val, point_lt t⟩ : Fin 16) r l) := by
  obtain ⟨-, -, -, -, -, -, -, d0, d1, d2, -⟩ := idx_facts t
  show A (((cfg0.win 2).blk t).view.emb (ix3 (0 : Fin 1) r l)) = _
  refine congrArg A (funext fun a => Fin.ext ?_)
  match a with
  | ⟨0, _⟩ => show win0_2.index t (0 : Fin 3) * 1 + 1 * 0 = t.val; omega
  | ⟨1, _⟩ => show win0_2.index t (1 : Fin 3) * 128 + 1 * r.val = r.val; omega
  | ⟨2, _⟩ => show win0_2.index t (2 : Fin 3) * 1024 + 1 * l.val = l.val; omega

/-- The tile of the three blocks at point `t` is block `t` of `tiled`, for any three arrays. -/
theorem tile_blocks (t : Fin cfg0.N) (A0 : Vec Ideal S16x3x3 .f32) (A1 : Vec Ideal S16x3x128x1024 .f32)
    (A2 : Vec Ideal S16x128x1024 .f32) :
    Cert.Backproject.tile (((cfg0.win 0).blk t).view.read (Elt Ideal) A0) (((cfg0.win 1).blk t).view.read (Elt Ideal) A1)
        (((cfg0.win 2).blk t).view.read (Elt Ideal) A2)
      = ((cfg0.win 3).blk t).view.read (Elt Ideal) (Cert.Backproject.tiled A0 A1 A2) := by
  obtain ⟨-, -, -, -, -, -, -, -, -, -, o0, o1, o2, o3⟩ := idx_facts t
  refine funext fun (y : S1x4x128x1024.Idx) => ?_
  show _ = Cert.Backproject.tiled A0 A1 A2 (((cfg0.win 3).blk t).view.emb y)
  have h0 : (y 0).val < 1 := (y 0).isLt
  have hy : y = ix4 (0 : Fin 1) (y 1) (y 2) (y 3) := by
    funext a
    match a with
    | ⟨0, _⟩ => exact Fin.ext (by show (y 0).val = 0; omega)
    | ⟨1, _⟩ => rfl
    | ⟨2, _⟩ => rfl
    | ⟨3, _⟩ => rfl
  have he : ((cfg0.win 3).blk t).view.emb y = ix4 (⟨t.val, point_lt t⟩ : Fin 16) (y 1) (y 2) (y 3) := by
    refine funext fun a => Fin.ext ?_
    match a with
    | ⟨0, _⟩ => show win0_3.index t (0 : Fin 4) * 1 + 1 * (y 0).val = t.val; omega
    | ⟨1, _⟩ => show win0_3.index t (1 : Fin 4) * 4 + 1 * (y 1).val = (y 1).val; omega
    | ⟨2, _⟩ => show win0_3.index t (2 : Fin 4) * 128 + 1 * (y 2).val = (y 2).val; omega
    | ⟨3, _⟩ => show win0_3.index t (3 : Fin 4) * 1024 + 1 * (y 3).val = (y 3).val; omega
  rw [he]
  refine (congrArg (Cert.Backproject.tile _ _ _) hy).trans ?_
  exact Cert.Backproject.tile_eq_tiled A0 A1 A2 ⟨t.val, point_lt t⟩ _ _ _ (corner_blk t A0) (pix_blk t A1) (dep_blk t A2)
    (y 1) (y 2) (y 3)

/-- What point `t` writes back is block `t` of `tiled` of the three arrays as the region finds them. -/
theorem flushed_eq (c : Dev nD) (t : Fin cfg0.N) :
    (dats m 0 c).flushed 3 t
      = ((cfg0.win 3).blk t).view.read (Elt Ideal)
          (Cert.Backproject.tiled (V m c (Pipeline.arrRef spec0 0)) (V m c (Pipeline.arrRef spec0 1))
            (V m c (Pipeline.arrRef spec0 2))) := by
  show (cfg0.win 3).cut (grid0.coords t) ((dats m 0 c).after 3 t) = _
  rw [after0_3, TileValue.out_eq_tile]
  unfold iblk
  exact tile_blocks t _ _ _

/-- An index of the output array is in point `t`'s block iff each coordinate is in the block's range on its axis. -/
theorem mem_blk (t : Fin cfg0.N) (i : S16x4x128x1024.Idx) :
    i ∈ ((cfg0.win 3).blk t).view.set ↔ ∀ a : Fin 4, win0_3.index t a * S1x4x128x1024.size a ≤ (i a).val
      ∧ (i a).val < win0_3.index t a * S1x4x128x1024.size a + S1x4x128x1024.size a := by
  show i ∈ ((View.whole main_v9).slice (win0_3.rect t)).set ↔ _
  rw [View.set_slice_whole, Rect.mem_set_unit]
  exact Iff.rfl

/-- Every index of the output array lies in the block of its own batch element. -/
theorem cover (i : S16x4x128x1024.Idx) :
    ∃ t : Fin cfg0.N, (cfg0.win 3).flush t = true ∧ i ∈ ((cfg0.win 3).blk t).view.set := by
  have hi0 : (i 0).val < 16 := (i 0).isLt
  have hi1 : (i 1).val < 4 := (i 1).isLt
  have hi2 : (i 2).val < 128 := (i 2).isLt
  have hi3 : (i 3).val < 1024 := (i 3).isLt
  obtain ⟨t, ht⟩ : ∃ t : Fin cfg0.N, t.val = (i 0).val := ⟨⟨(i 0).val, lt_of_lt_of_eq hi0 N_0.symm⟩, rfl⟩
  obtain ⟨-, -, -, -, -, -, -, -, -, -, o0, o1, o2, o3⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 4 ≤ (i 1).val ∧ (i 1).val < win0_3.index t (1 : Fin 4) * 4 + 4; omega
  | ⟨2, _⟩ => show win0_3.index t (2 : Fin 4) * 128 ≤ (i 2).val ∧ (i 2).val < win0_3.index t (2 : Fin 4) * 128 + 128; omega
  | ⟨3, _⟩ => show win0_3.index t (3 : Fin 4) * 1024 ≤ (i 3).val ∧ (i 3).val < win0_3.index t (3 : Fin 4) * 1024 + 1024; omega

/-- The output array after the run is `tiled` of the three arrays as the region found them. -/
theorem final (c : Dev nD) :
    (dats m 0 c).arrAt 3 cfg0.N
      = Cert.Backproject.tiled (V m c (Pipeline.arrRef spec0 0)) (V m c (Pipeline.arrRef spec0 1))
          (V m c (Pipeline.arrRef spec0 2)) :=
  (dats m 0 c).arrAt_eq_of_cover 3 _ (fun t _ => flushed_eq m c t) cover

end Cert.KernelIdeal.ArrayValue

end
-- ==== Proof.KernelEntry.lean ====
/-
  What the kernel's region finds in the three arrays its input windows stage.

  Before the region the kernel's program runs the same gathers as the reference, on the same arguments: the index
  array laid along the last axis and repeated over three rows, the gather of pixel coordinates, the depth map flattened,
  the gather of depths. It then cuts the long axis of both gathered arrays into 128 rows of 1024 (dropping the depths'
  unit axis on the way) and takes the 3×3 corners of the matrices. Read back piece by piece, from whatever contents
  each piece finds, the three arrays are the reference module's `pixSel`, `depSel` and `corner` of the argument arrays,
  re-laid; the two programs' operations are the same operations, so the terms agree as written.
-/
import proofs.«149385_j18253611008840_2_alg».proof.Proof.Gen.KernelIdeal.Frame
import proofs.«149385_j18253611008840_2_alg».proof.Proof.RefRun
import proofs.«149385_j18253611008840_2_alg».proof.Proof.LibStretch
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-! ## The operations before the region, cut into pieces

Each piece is read back from WHATEVER contents it finds (`W`): what it computes, from the buffers it reads, and that
the buffers later pieces still need pass through it untouched. -/

/-- Operations 1–2 before the region: the index array laid out. -/
abbrev preIdx : List (HloOp τ sig (Elt F)) :=
  [ StableHlo.unary main_arg3 main_v0 (broadcastInDim S16x1x131072 ![0, 2] bcast_S16x131072_S16x1x131072_0_2 : (⟨S16x131072, .i32⟩ : BufTy).Contents (Elt F) → (⟨S16x1x131072, .i32⟩ : BufTy).Contents (Elt F)),
    StableHlo.unary main_v0 main_v1 (broadcastInDim S16x3x131072 ![0, 1, 2] bcast_S16x1x131072_S16x3x131072_0_1_2 : (⟨S16x1x131072, .i32⟩ : BufTy).Contents (Elt F) → (⟨S16x3x131072, .i32⟩ : BufTy).Contents (Elt F)) ]

/-- Operations 3–10 before the region: the pixel gather's indices. -/
abbrev prePixA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v0 : StableHlo.TRef sig ⟨S16x3x131072, .i32⟩) (.of main_call0_v1 : StableHlo.TRef sig ⟨S16x3x131072, .i1⟩) (cmpi .slt),
    StableHlo.TRef.nullary (.of main_call0_c_0 : StableHlo.TRef sig ⟨S_, .i32⟩) (constantI S_ 32 491520#32),
    StableHlo.TRef.unary (.of main_call0_c_0 : StableHlo.TRef sig ⟨S_, .i32⟩) (.of main_call0_v2 : StableHlo.TRef sig ⟨S16x3x131072, .i32⟩) (broadcastInDim S16x3x131072 ![] bcast_S_S16x3x131072),
    StableHlo.TRef.binary (.of main_v1 : StableHlo.TRef sig ⟨S16x3x131072, .i32⟩) (.of main_call0_v2 : StableHlo.TRef sig ⟨S16x3x131072, .i32⟩) (.of main_call0_v3 : StableHlo.TRef sig ⟨S16x3x131072, .i32⟩) addi,
    StableHlo.TRef.ternary (.of main_call0_v1 : StableHlo.TRef sig ⟨S16x3x131072, .i1⟩) (.of main_call0_v3 : StableHlo.TRef sig ⟨S16x3x131072, .i32⟩) (.of main_v1 : StableHlo.TRef sig ⟨S16x3x131072, .i32⟩) (.of main_call0_v4 : StableHlo.TRef sig ⟨S16x3x131072, .i32⟩) select,
    StableHlo.TRef.reshape (.of main_call0_v4 : StableHlo.TRef sig ⟨S16x3x131072, .i32⟩) (.of main_call0_v5 : StableHlo.TRef sig ⟨S16x3x131072x1, .i32⟩) rfl shapeCasts_S16x3x131072_S16x3x131072x1 ]

/-- Operations 11–20 before the region: which of those indices are inside the axis. -/
abbrev prePixM : List (HloOp τ sig (Elt F)) :=
  [ StableHlo.TRef.nullary (.of main_call0_c_1 : StableHlo.TRef sig ⟨S1, .i32⟩) (constantI S1 32 491519#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16x3x131072x1, .i32⟩) (broadcastInDim S16x3x131072x1 ![] bcast_S_S16x3x131072x1),
    StableHlo.TRef.binary (.of main_call0_v5 : StableHlo.TRef sig ⟨S16x3x131072x1, .i32⟩) (.of main_call0_v6 : StableHlo.TRef sig ⟨S16x3x131072x1, .i32⟩) (.of main_call0_v7 : StableHlo.TRef sig ⟨S16x3x131072x1, .i1⟩) (cmpi .sge),
    StableHlo.TRef.unary (.of main_call0_c_1 : StableHlo.TRef sig ⟨S1, .i32⟩) (.of main_call0_v8 : StableHlo.TRef sig ⟨S1x1x1x1, .i32⟩) (broadcastInDim S1x1x1x1 ![3] bcast_S1_S1x1x1x1_3),
    StableHlo.TRef.unary (.of main_call0_v8 : StableHlo.TRef sig ⟨S1x1x1x1, .i32⟩) (.of main_call0_v9 : StableHlo.TRef sig ⟨S16x3x131072x1, .i32⟩) (broadcastInDim S16x3x131072x1 ![0, 1, 2, 3] bcast_S1x1x1x1_S16x3x131072x1_0_1_2_3),
    StableHlo.TRef.binary (.of main_call0_v5 : StableHlo.TRef sig ⟨S16x3x131072x1, .i32⟩) (.of main_call0_v9 : StableHlo.TRef sig ⟨S16x3x131072x1, .i32⟩) (.of main_call0_v10 : StableHlo.TRef sig ⟨S16x3x131072x1, .i1⟩) (cmpi .sle),
    StableHlo.TRef.binary (.of main_call0_v7 : StableHlo.TRef sig ⟨S16x3x131072x1, .i1⟩) (.of main_call0_v10 : StableHlo.TRef sig ⟨S16x3x131072x1, .i1⟩) (.of main_call0_v11 : StableHlo.TRef sig ⟨S16x3x131072x1, .i1⟩) andi,
    StableHlo.TRef.nullary (.of main_call0_c_3 : StableHlo.TRef sig ⟨S_, .i1⟩) (constantI S_ 1 1#1),
    StableHlo.TRef.binary (.of main_call0_v11 : StableHlo.TRef sig ⟨S16x3x131072x1, .i1⟩) (.of main_call0_c_3 : StableHlo.TRef sig ⟨S_, .i1⟩) (.of main_call0_v12 : StableHlo.TRef sig ⟨S16x3x131072, .i1⟩) (fun x v => Host.reduce IntOp.andi x v reducesTo_S16x3x131072x1_S16x3x131072_d3 h_S_) ]

/-- Operations 21–21 before the region: the pixel gather itself. -/
abbrev prePixG : List (HloOp τ sig (Elt F)) :=
  [ StableHlo.TRef.binary (.of main_arg2 : StableHlo.TRef sig ⟨S16x3x491520, .f32⟩) (.of main_call0_v5 : StableHlo.TRef sig ⟨S16x3x131072x1, .i32⟩) (.of main_call0_v13 : StableHlo.TRef sig ⟨S16x3x131072, .f32⟩) (fun x i => Host.gather gather_S16x3x491520_S16x3x131072x1_S16x3x131072_n_2_01_01_2_3_111 x i) ]

/-- Operations 22–24 before the region: the fill value outside the axis. -/
abbrev prePixS : List (HloOp τ sig (Elt F)) :=
  [ StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S16x3x131072, .f32⟩) (broadcastInDim S16x3x131072 ![] bcast_S_S16x3x131072),
    StableHlo.TRef.ternary (.of main_call0_v12 : StableHlo.TRef sig ⟨S16x3x131072, .i1⟩) (.of main_call0_v13 : StableHlo.TRef sig ⟨S16x3x131072, .f32⟩) (.of main_call0_v14 : StableHlo.TRef sig ⟨S16x3x131072, .f32⟩) (.of main_v2 : StableHlo.TRef sig ⟨S16x3x131072, .f32⟩) select ]

/-- Operations 25–25 before the region: the depth map flattened. -/
abbrev preFlat : List (HloOp τ sig (Elt F)) :=
  [ StableHlo.reshape main_arg0 main_v3 rfl shapeCasts_S16x1x384x1280_S16x1x491520 ]

/-- Operations 26–33 before the region: the depth gather's indices. -/
abbrev preDepA : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v0 : StableHlo.TRef sig ⟨S16x1x131072, .i32⟩) (.of main_call1_v1 : StableHlo.TRef sig ⟨S16x1x131072, .i1⟩) (cmpi .slt),
    StableHlo.TRef.nullary (.of main_call1_c_0 : StableHlo.TRef sig ⟨S_, .i32⟩) (constantI S_ 32 491520#32),
    StableHlo.TRef.unary (.of main_call1_c_0 : StableHlo.TRef sig ⟨S_, .i32⟩) (.of main_call1_v2 : StableHlo.TRef sig ⟨S16x1x131072, .i32⟩) (broadcastInDim S16x1x131072 ![] bcast_S_S16x1x131072),
    StableHlo.TRef.binary (.of main_v0 : StableHlo.TRef sig ⟨S16x1x131072, .i32⟩) (.of main_call1_v2 : StableHlo.TRef sig ⟨S16x1x131072, .i32⟩) (.of main_call1_v3 : StableHlo.TRef sig ⟨S16x1x131072, .i32⟩) addi,
    StableHlo.TRef.ternary (.of main_call1_v1 : StableHlo.TRef sig ⟨S16x1x131072, .i1⟩) (.of main_call1_v3 : StableHlo.TRef sig ⟨S16x1x131072, .i32⟩) (.of main_v0 : StableHlo.TRef sig ⟨S16x1x131072, .i32⟩) (.of main_call1_v4 : StableHlo.TRef sig ⟨S16x1x131072, .i32⟩) select,
    StableHlo.TRef.reshape (.of main_call1_v4 : StableHlo.TRef sig ⟨S16x1x131072, .i32⟩) (.of main_call1_v5 : StableHlo.TRef sig ⟨S16x131072x1, .i32⟩) rfl shapeCasts_S16x1x131072_S16x131072x1 ]

/-- Operations 34–43 before the region: which of those indices are inside the axis. -/
abbrev preDepM : List (HloOp τ sig (Elt F)) :=
  [ StableHlo.TRef.nullary (.of main_call1_c_1 : StableHlo.TRef sig ⟨S1, .i32⟩) (constantI S1 32 491519#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16x131072x1, .i32⟩) (broadcastInDim S16x131072x1 ![] bcast_S_S16x131072x1),
    StableHlo.TRef.binary (.of main_call1_v5 : StableHlo.TRef sig ⟨S16x131072x1, .i32⟩) (.of main_call1_v6 : StableHlo.TRef sig ⟨S16x131072x1, .i32⟩) (.of main_call1_v7 : StableHlo.TRef sig ⟨S16x131072x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16x131072x1, .i32⟩) (broadcastInDim S16x131072x1 ![0, 1, 2] bcast_S1x1x1_S16x131072x1_0_1_2),
    StableHlo.TRef.binary (.of main_call1_v5 : StableHlo.TRef sig ⟨S16x131072x1, .i32⟩) (.of main_call1_v9 : StableHlo.TRef sig ⟨S16x131072x1, .i32⟩) (.of main_call1_v10 : StableHlo.TRef sig ⟨S16x131072x1, .i1⟩) (cmpi .sle),
    StableHlo.TRef.binary (.of main_call1_v7 : StableHlo.TRef sig ⟨S16x131072x1, .i1⟩) (.of main_call1_v10 : StableHlo.TRef sig ⟨S16x131072x1, .i1⟩) (.of main_call1_v11 : StableHlo.TRef sig ⟨S16x131072x1, .i1⟩) andi,
    StableHlo.TRef.nullary (.of main_call1_c_3 : StableHlo.TRef sig ⟨S_, .i1⟩) (constantI S_ 1 1#1),
    StableHlo.TRef.binary (.of main_call1_v11 : StableHlo.TRef sig ⟨S16x131072x1, .i1⟩) (.of main_call1_c_3 : StableHlo.TRef sig ⟨S_, .i1⟩) (.of main_call1_v12 : StableHlo.TRef sig ⟨S16x131072, .i1⟩) (fun x v => Host.reduce IntOp.andi x v reducesTo_S16x131072x1_S16x131072_d2 h_S_) ]

/-- Operations 44–44 before the region: the depth gather itself. -/
abbrev preDepG : List (HloOp τ sig (Elt F)) :=
  [ StableHlo.TRef.binary (.of main_v3 : StableHlo.TRef sig ⟨S16x1x491520, .f32⟩) (.of main_call1_v5 : StableHlo.TRef sig ⟨S16x131072x1, .i32⟩) (.of main_call1_v13 : StableHlo.TRef sig ⟨S16x1x131072, .f32⟩) (fun x i => Host.gather gather_S16x1x491520_S16x131072x1_S16x1x131072_1_2_0_0_2_2_111 x i) ]

/-- Operations 45–48 before the region: the fill value outside the axis. -/
abbrev preDepS : List (HloOp τ sig (Elt F)) :=
  [ StableHlo.TRef.unary (.of main_call1_v12 : StableHlo.TRef sig ⟨S16x131072, .i1⟩) (.of main_call1_v14 : StableHlo.TRef sig ⟨S16x1x131072, .i1⟩) (broadcastInDim S16x1x131072 ![0, 2] bcast_S16x131072_S16x1x131072_0_2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16x1x131072, .f32⟩) (broadcastInDim S16x1x131072 ![] bcast_S_S16x1x131072),
    StableHlo.TRef.ternary (.of main_call1_v14 : StableHlo.TRef sig ⟨S16x1x131072, .i1⟩) (.of main_call1_v13 : StableHlo.TRef sig ⟨S16x1x131072, .f32⟩) (.of main_call1_v15 : StableHlo.TRef sig ⟨S16x1x131072, .f32⟩) (.of main_v4 : StableHlo.TRef sig ⟨S16x1x131072, .f32⟩) select ]

/-- Operations 49–52 before the region: the long axis cut into 128 rows of 1024, and the 3×3 corners. -/
abbrev preCut : List (HloOp τ sig (Elt F)) :=
  [ StableHlo.reshape main_v4 main_v5 rfl shapeCasts_S16x1x131072_S16x131072,
    StableHlo.reshape main_v2 main_v6 rfl shapeCasts_S16x3x131072_S16x3x128x1024,
    StableHlo.reshape main_v5 main_v7 rfl shapeCasts_S16x131072_S16x128x1024,
    StableHlo.unary main_arg1 main_v8 ((extractStridedSlice S16x3x3 ![0, 0, 0] · slices_S16x4x4_S16x3x3_0_0_0) : (⟨S16x4x4, .f32⟩ : BufTy).Contents (Elt F) → (⟨S16x3x3, .f32⟩ : BufTy).Contents (Elt F)) ]

set_option maxRecDepth 65536 in
/-- The operations before the region are these pieces in order. -/
theorem prefix_split : (List.flatten [hostOps0, hostOps0_1, hostOps0_2, hostOps0_3, hostOps0_4] : List (HloOp τ sig (Elt F))) = preIdx ++ (prePixA ++ (prePixM ++ (prePixG ++ (prePixS ++ (preFlat ++ (preDepA ++ (preDepM ++ (preDepG ++ (preDepS ++ (preCut)))))))))) := rfl

/-! ## Each piece read back -/

set_option maxHeartbeats 1000000 in
theorem idx_v0 (W : Valuation τ sig (Elt F)) :
    after preIdx W (Proc.devRef .tc main_v0) = Cert.ReferenceIdeal.RefRun.rowIdx (F := F) (W (Proc.devRef .tc main_arg3)) := by
  after_results
  rfl
set_option maxHeartbeats 1000000 in
theorem idx_v1 (W : Valuation τ sig (Elt F)) :
    after preIdx W (Proc.devRef .tc main_v1) = Cert.ReferenceIdeal.RefRun.rowIdx3 (F := F) (W (Proc.devRef .tc main_arg3)) := by
  after_results
  rfl
theorem preIdx_keeps_main_arg2 (W : Valuation τ sig (Elt F)) : after preIdx W (Proc.devRef .tc main_arg2) = W (Proc.devRef .tc main_arg2) := by
  after_results
theorem preIdx_keeps_main_arg0 (W : Valuation τ sig (Elt F)) : after preIdx W (Proc.devRef .tc main_arg0) = W (Proc.devRef .tc main_arg0) := by
  after_results
theorem preIdx_keeps_main_arg1 (W : Valuation τ sig (Elt F)) : after preIdx W (Proc.devRef .tc main_arg1) = W (Proc.devRef .tc main_arg1) := by
  after_results

set_option maxHeartbeats 1000000 in
theorem pixA_idx (W : Valuation τ sig (Elt F)) :
    after prePixA W (Proc.devRef .tc main_call0_v5) = Cert.ReferenceIdeal.RefRun.pixIdxOf (F := F) (W (Proc.devRef .tc main_v1)) := by
  after_results
  rfl
theorem prePixA_keeps_main_arg2 (W : Valuation τ sig (Elt F)) : after prePixA W (Proc.devRef .tc main_arg2) = W (Proc.devRef .tc main_arg2) := by
  after_results
theorem prePixA_keeps_main_v0 (W : Valuation τ sig (Elt F)) : after prePixA W (Proc.devRef .tc main_v0) = W (Proc.devRef .tc main_v0) := by
  after_results
theorem prePixA_keeps_main_arg0 (W : Valuation τ sig (Elt F)) : after prePixA W (Proc.devRef .tc main_arg0) = W (Proc.devRef .tc main_arg0) := by
  after_results
theorem prePixA_keeps_main_arg1 (W : Valuation τ sig (Elt F)) : after prePixA W (Proc.devRef .tc main_arg1) = W (Proc.devRef .tc main_arg1) := by
  after_results

set_option maxHeartbeats 1000000 in
theorem pixM_mask (W : Valuation τ sig (Elt F)) :
    after prePixM W (Proc.devRef .tc main_call0_v12) = Cert.ReferenceIdeal.RefRun.pixMaskOf (F := F) (W (Proc.devRef .tc main_call0_v5)) := by
  after_results
  simp only [Cert.LibStretch.ofBuf_toBuf]
  refine (eq_of_heq (cast_heq _ _)).trans ?_
  rfl
theorem prePixM_keeps_main_arg2 (W : Valuation τ sig (Elt F)) : after prePixM W (Proc.devRef .tc main_arg2) = W (Proc.devRef .tc main_arg2) := by
  after_results
theorem prePixM_keeps_main_call0_v5 (W : Valuation τ sig (Elt F)) : after prePixM W (Proc.devRef .tc main_call0_v5) = W (Proc.devRef .tc main_call0_v5) := by
  after_results
theorem prePixM_keeps_main_v0 (W : Valuation τ sig (Elt F)) : after prePixM W (Proc.devRef .tc main_v0) = W (Proc.devRef .tc main_v0) := by
  after_results
theorem prePixM_keeps_main_arg0 (W : Valuation τ sig (Elt F)) : after prePixM W (Proc.devRef .tc main_arg0) = W (Proc.devRef .tc main_arg0) := by
  after_results
theorem prePixM_keeps_main_arg1 (W : Valuation τ sig (Elt F)) : after prePixM W (Proc.devRef .tc main_arg1) = W (Proc.devRef .tc main_arg1) := by
  after_results

set_option maxHeartbeats 1000000 in
theorem pixG_raw (W : Valuation τ sig (Elt F)) :
    after prePixG W (Proc.devRef .tc main_call0_v13) = Host.gather gather_S16x3x491520_S16x3x131072x1_S16x3x131072_n_2_01_01_2_3_111 (W (Proc.devRef .tc main_arg2)) (W (Proc.devRef .tc main_call0_v5)) := by
  after_results
  rfl
theorem prePixG_keeps_main_call0_v12 (W : Valuation τ sig (Elt F)) : after prePixG W (Proc.devRef .tc main_call0_v12) = W (Proc.devRef .tc main_call0_v12) := by
  after_results
theorem prePixG_keeps_main_v0 (W : Valuation τ sig (Elt F)) : after prePixG W (Proc.devRef .tc main_v0) = W (Proc.devRef .tc main_v0) := by
  after_results
theorem prePixG_keeps_main_arg0 (W : Valuation τ sig (Elt F)) : after prePixG W (Proc.devRef .tc main_arg0) = W (Proc.devRef .tc main_arg0) := by
  after_results
theorem prePixG_keeps_main_arg1 (W : Valuation τ sig (Elt F)) : after prePixG W (Proc.devRef .tc main_arg1) = W (Proc.devRef .tc main_arg1) := by
  after_results

set_option maxHeartbeats 1000000 in
theorem pixS_v2 (W : Valuation τ sig (Elt F)) :
    after prePixS W (Proc.devRef .tc main_v2) = Cert.ReferenceIdeal.RefRun.fillOutside3 (F := F) (W (Proc.devRef .tc main_call0_v12)) (W (Proc.devRef .tc main_call0_v13)) := by
  after_results
  rfl
theorem prePixS_keeps_main_v0 (W : Valuation τ sig (Elt F)) : after prePixS W (Proc.devRef .tc main_v0) = W (Proc.devRef .tc main_v0) := by
  after_results
theorem prePixS_keeps_main_arg0 (W : Valuation τ sig (Elt F)) : after prePixS W (Proc.devRef .tc main_arg0) = W (Proc.devRef .tc main_arg0) := by
  after_results
theorem prePixS_keeps_main_arg1 (W : Valuation τ sig (Elt F)) : after prePixS W (Proc.devRef .tc main_arg1) = W (Proc.devRef .tc main_arg1) := by
  after_results

set_option maxHeartbeats 1000000 in
theorem flat_v3 (W : Valuation τ sig (Elt F)) :
    after preFlat W (Proc.devRef .tc main_v3) = (shapeCast _ (W (Proc.devRef .tc main_arg0)) shapeCasts_S16x1x384x1280_S16x1x491520 : (⟨S16x1x491520, .f32⟩ : BufTy).Contents (Elt F)) := by
  after_results
  rfl
theorem preFlat_keeps_main_v2 (W : Valuation τ sig (Elt F)) : after preFlat W (Proc.devRef .tc main_v2) = W (Proc.devRef .tc main_v2) := by
  after_results
theorem preFlat_keeps_main_v0 (W : Valuation τ sig (Elt F)) : after preFlat W (Proc.devRef .tc main_v0) = W (Proc.devRef .tc main_v0) := by
  after_results
theorem preFlat_keeps_main_arg1 (W : Valuation τ sig (Elt F)) : after preFlat W (Proc.devRef .tc main_arg1) = W (Proc.devRef .tc main_arg1) := by
  after_results

set_option maxHeartbeats 1000000 in
theorem depA_idx (W : Valuation τ sig (Elt F)) :
    after preDepA W (Proc.devRef .tc main_call1_v5) = Cert.ReferenceIdeal.RefRun.depIdxOf (F := F) (W (Proc.devRef .tc main_v0)) := by
  after_results
  rfl
theorem preDepA_keeps_main_v2 (W : Valuation τ sig (Elt F)) : after preDepA W (Proc.devRef .tc main_v2) = W (Proc.devRef .tc main_v2) := by
  after_results
theorem preDepA_keeps_main_v3 (W : Valuation τ sig (Elt F)) : after preDepA W (Proc.devRef .tc main_v3) = W (Proc.devRef .tc main_v3) := by
  after_results
theorem preDepA_keeps_main_arg1 (W : Valuation τ sig (Elt F)) : after preDepA W (Proc.devRef .tc main_arg1) = W (Proc.devRef .tc main_arg1) := by
  after_results

set_option maxHeartbeats 1000000 in
theorem depM_mask (W : Valuation τ sig (Elt F)) :
    after preDepM W (Proc.devRef .tc main_call1_v12) = Cert.ReferenceIdeal.RefRun.depMaskOf (F := F) (W (Proc.devRef .tc main_call1_v5)) := by
  after_results
  simp only [Cert.LibStretch.ofBuf_toBuf]
  refine (eq_of_heq (cast_heq _ _)).trans ?_
  rfl
theorem preDepM_keeps_main_v2 (W : Valuation τ sig (Elt F)) : after preDepM W (Proc.devRef .tc main_v2) = W (Proc.devRef .tc main_v2) := by
  after_results
theorem preDepM_keeps_main_v3 (W : Valuation τ sig (Elt F)) : after preDepM W (Proc.devRef .tc main_v3) = W (Proc.devRef .tc main_v3) := by
  after_results
theorem preDepM_keeps_main_call1_v5 (W : Valuation τ sig (Elt F)) : after preDepM W (Proc.devRef .tc main_call1_v5) = W (Proc.devRef .tc main_call1_v5) := by
  after_results
theorem preDepM_keeps_main_arg1 (W : Valuation τ sig (Elt F)) : after preDepM W (Proc.devRef .tc main_arg1) = W (Proc.devRef .tc main_arg1) := by
  after_results

set_option maxHeartbeats 1000000 in
theorem depG_raw (W : Valuation τ sig (Elt F)) :
    after preDepG W (Proc.devRef .tc main_call1_v13) = Host.gather gather_S16x1x491520_S16x131072x1_S16x1x131072_1_2_0_0_2_2_111 (W (Proc.devRef .tc main_v3)) (W (Proc.devRef .tc main_call1_v5)) := by
  after_results
  rfl
theorem preDepG_keeps_main_v2 (W : Valuation τ sig (Elt F)) : after preDepG W (Proc.devRef .tc main_v2) = W (Proc.devRef .tc main_v2) := by
  after_results
theorem preDepG_keeps_main_call1_v12 (W : Valuation τ sig (Elt F)) : after preDepG W (Proc.devRef .tc main_call1_v12) = W (Proc.devRef .tc main_call1_v12) := by
  after_results
theorem preDepG_keeps_main_arg1 (W : Valuation τ sig (Elt F)) : after preDepG W (Proc.devRef .tc main_arg1) = W (Proc.devRef .tc main_arg1) := by
  after_results

set_option maxHeartbeats 1000000 in
theorem depS_v4 (W : Valuation τ sig (Elt F)) :
    after preDepS W (Proc.devRef .tc main_v4) = Cert.ReferenceIdeal.RefRun.fillOutside1 (F := F) (W (Proc.devRef .tc main_call1_v12)) (W (Proc.devRef .tc main_call1_v13)) := by
  after_results
  rfl
theorem preDepS_keeps_main_v2 (W : Valuation τ sig (Elt F)) : after preDepS W (Proc.devRef .tc main_v2) = W (Proc.devRef .tc main_v2) := by
  after_results
theorem preDepS_keeps_main_arg1 (W : Valuation τ sig (Elt F)) : after preDepS W (Proc.devRef .tc main_arg1) = W (Proc.devRef .tc main_arg1) := by
  after_results

set_option maxHeartbeats 1000000 in
theorem cut_v5 (W : Valuation τ sig (Elt F)) :
    after preCut W (Proc.devRef .tc main_v5) = (shapeCast _ (W (Proc.devRef .tc main_v4)) shapeCasts_S16x1x131072_S16x131072 : (⟨S16x131072, .f32⟩ : BufTy).Contents (Elt F)) := by
  after_results
  rfl
set_option maxHeartbeats 1000000 in
theorem cut_v6 (W : Valuation τ sig (Elt F)) :
    after preCut W (Proc.devRef .tc main_v6) = (shapeCast _ (W (Proc.devRef .tc main_v2)) shapeCasts_S16x3x131072_S16x3x128x1024 : (⟨S16x3x128x1024, .f32⟩ : BufTy).Contents (Elt F)) := by
  after_results
  rfl
set_option maxHeartbeats 1000000 in
theorem cut_v7 (W : Valuation τ sig (Elt F)) :
    after preCut W (Proc.devRef .tc main_v7) = (shapeCast _ (shapeCast _ (W (Proc.devRef .tc main_v4)) shapeCasts_S16x1x131072_S16x131072 : (⟨S16x131072, .f32⟩ : BufTy).Contents (Elt F)) shapeCasts_S16x131072_S16x128x1024 : (⟨S16x128x1024, .f32⟩ : BufTy).Contents (Elt F)) := by
  after_results
  rfl
set_option maxHeartbeats 1000000 in
theorem cut_v8 (W : Valuation τ sig (Elt F)) :
    after preCut W (Proc.devRef .tc main_v8) = Cert.ReferenceIdeal.RefRun.corner (F := F) (W (Proc.devRef .tc main_arg1)) := by
  after_results
  rfl

/-! ## The three arrays the region's windows stage -/

/-- The pixel window's array: the selected pixel coordinates with the long axis cut into rows. -/
theorem pix_of (W : Valuation τ sig (Elt F)) :
    after (List.flatten [hostOps0, hostOps0_1, hostOps0_2, hostOps0_3, hostOps0_4] : List (HloOp τ sig (Elt F))) W (Proc.devRef .tc main_v6)
      = (shapeCast _ (Cert.ReferenceIdeal.RefRun.pixSel (F := F) (W (Proc.devRef .tc main_arg2)) (W (Proc.devRef .tc main_arg3))) shapeCasts_S16x3x131072_S16x3x128x1024 : (⟨S16x3x128x1024, .f32⟩ : BufTy).Contents (Elt F)) := by
  rw [prefix_split]
  simp only [Cert.LibStretch.after_append]
  rw [cut_v6, preDepS_keeps_main_v2, preDepG_keeps_main_v2, preDepM_keeps_main_v2, preDepA_keeps_main_v2, preFlat_keeps_main_v2, pixS_v2, prePixG_keeps_main_call0_v12, pixG_raw, pixM_mask, prePixM_keeps_main_arg2, prePixM_keeps_main_call0_v5, pixA_idx, prePixA_keeps_main_arg2, idx_v1, preIdx_keeps_main_arg2]
  rfl

/-- The depth window's array: the selected depths, their unit axis dropped, the long axis cut into rows. -/
theorem dep_of (W : Valuation τ sig (Elt F)) :
    after (List.flatten [hostOps0, hostOps0_1, hostOps0_2, hostOps0_3, hostOps0_4] : List (HloOp τ sig (Elt F))) W (Proc.devRef .tc main_v7)
      = (shapeCast _ (shapeCast _ (Cert.ReferenceIdeal.RefRun.depSel (F := F) (W (Proc.devRef .tc main_arg0)) (W (Proc.devRef .tc main_arg3))) shapeCasts_S16x1x131072_S16x131072 : (⟨S16x131072, .f32⟩ : BufTy).Contents (Elt F)) shapeCasts_S16x131072_S16x128x1024 : (⟨S16x128x1024, .f32⟩ : BufTy).Contents (Elt F)) := by
  rw [prefix_split]
  simp only [Cert.LibStretch.after_append]
  rw [cut_v7, depS_v4, preDepG_keeps_main_call1_v12, depG_raw, depM_mask, preDepM_keeps_main_v3, preDepM_keeps_main_call1_v5, depA_idx, preDepA_keeps_main_v3, preFlat_keeps_main_v0, flat_v3, prePixS_keeps_main_v0, prePixS_keeps_main_arg0, prePixG_keeps_main_v0, prePixG_keeps_main_arg0, prePixM_keeps_main_v0, prePixM_keeps_main_arg0, prePixA_keeps_main_v0, prePixA_keeps_main_arg0, idx_v0, preIdx_keeps_main_arg0]
  rfl

/-- The matrix window's array: the 3×3 corners. -/
theorem corner_of (W : Valuation τ sig (Elt F)) :
    after (List.flatten [hostOps0, hostOps0_1, hostOps0_2, hostOps0_3, hostOps0_4] : List (HloOp τ sig (Elt F))) W (Proc.devRef .tc main_v8)
      = Cert.ReferenceIdeal.RefRun.corner (F := F) (W (Proc.devRef .tc main_arg1)) := by
  rw [prefix_split]
  simp only [Cert.LibStretch.after_append]
  rw [cut_v8, preDepS_keeps_main_arg1, preDepG_keeps_main_arg1, preDepM_keeps_main_arg1, preDepA_keeps_main_arg1, preFlat_keeps_main_arg1, prePixS_keeps_main_arg1, prePixG_keeps_main_arg1, prePixM_keeps_main_arg1, prePixA_keeps_main_arg1, preIdx_keeps_main_arg1]

variable (m : (ℓ : Loc nD τ sig) → Buf (Elt F) ℓ)

/-- The pixel window's array as the region finds it. -/
theorem pix_entry (c : Dev nD) :
    V m c main_v6
      = (shapeCast _ (Cert.ReferenceIdeal.RefRun.pixSel (F := F) (m ((c : Thread nD τ).loc main_arg2)) (m ((c : Thread nD τ).loc main_arg3)))
          shapeCasts_S16x3x131072_S16x3x128x1024 : (⟨S16x3x128x1024, .f32⟩ : BufTy).Contents (Elt F)) :=
  pix_of (F := F) (fun b => m (c, b))

/-- The depth window's array as the region finds it. -/
theorem dep_entry (c : Dev nD) :
    V m c main_v7
      = (shapeCast _ (shapeCast _ (Cert.ReferenceIdeal.RefRun.depSel (F := F) (m ((c : Thread nD τ).loc main_arg0)) (m ((c : Thread nD τ).loc main_arg3)))
            shapeCasts_S16x1x131072_S16x131072 : (⟨S16x131072, .f32⟩ : BufTy).Contents (Elt F))
          shapeCasts_S16x131072_S16x128x1024 : (⟨S16x128x1024, .f32⟩ : BufTy).Contents (Elt F)) :=
  dep_of (F := F) (fun b => m (c, b))

/-- The matrix window's array as the region finds it. -/
theorem corner_entry (c : Dev nD) :
    V m c main_v8 = Cert.ReferenceIdeal.RefRun.corner (F := F) (m ((c : Thread nD τ).loc main_arg1)) :=
  corner_of (F := F) (fun b => m (c, b))

end Cert.KernelIdeal.Entry

end
-- ==== Proof.Relayout.lean ====
/-
  Cutting the long axis and joining it again moves nothing.

  The 131072 columns of an array can be laid out as 128 rows of 1024 lanes: column k sits in row k / 1024 at lane
  k % 1024, and row r, lane l is column r · 1024 + l. A reshape keeps every entry at its position in row-major order,
  and in that order the two layouts number the entries alike, because

      (m · 128 + r) · 1024 + l = m · 131072 + (r · 1024 + l)

  for whatever number m the leading coordinates contribute. So the pixel array cut this way reads, at (b, j, r, l), the
  uncut one at (b, j, r · 1024 + l); the depth array, first stripped of its axis of length one and then cut, reads at
  (b, r, l) the uncut one at (b, 0, r · 1024 + l); and a result laid out in rows and lanes, joined back into columns,
  reads at (b, c, k) its entry (b, c, k / 1024, k % 1024). The specification already says that `tiled` over arrays
  related to `pix` and `dep` in this way is `points` read through the same correspondence (`tiled_eq_points`); putting the
  three readings together, `tiled` over the cut inputs, joined back, is `points`.
-/
import proofs.«149385_j18253611008840_2_alg».proof.Proof.Spec
import Idealize.ShloMosaic.Lib.Pipeline.Value
import Idealize.ShloMosaic.Lib.ValueIdx

namespace Cert.Backproject.Relayout
open Cert.Backproject Idealize.ShloMosaic Idealize.ShloMosaic.ValueIdx

/-- The pixel array cut into rows and lanes: entry (b, j, r, l) is the uncut array's entry (b, j, k) when
    k = r · 1024 + l. Both sit at position (b · 3 + j) · 131072 + k of the row-major order. -/
theorem pix_cut_apply (pix : FVec Ideal ⟨3, ![16, 3, 131072]⟩ .f32)
    (hp : (⟨3, ![16, 3, 131072]⟩ : Shape).ShapeCasts ⟨4, ![16, 3, 128, 1024]⟩)
    (b : Fin 16) (j : Fin 3) (r : Fin 128) (l : Fin 1024) (k : Fin 131072) (hk : k.val = r.val * 1024 + l.val) :
    shapeCast ⟨4, ![16, 3, 128, 1024]⟩ pix hp (ix4 b j r l) = pix (ix3 b j k) := by
  refine shapeCast_apply pix hp _ _ ?_
  rw [Shape.rowMajor_val_three, Shape.rowMajor_val_four]
  show (b.val * 3 + j.val) * 131072 + k.val = ((b.val * 3 + j.val) * 128 + r.val) * 1024 + l.val
  omega

/-- The depth array with its axis of length one dropped, then cut into rows and lanes: entry (b, r, l) is the
    original's entry (b, 0, k) when k = r · 1024 + l. Through the middle array the entry is (b, k); all three sit at
    position b · 131072 + k. -/
theorem dep_cut_apply (dep : FVec Ideal ⟨3, ![16, 1, 131072]⟩ .f32)
    (hd1 : (⟨3, ![16, 1, 131072]⟩ : Shape).ShapeCasts ⟨2, ![16, 131072]⟩)
    (hd2 : (⟨2, ![16, 131072]⟩ : Shape).ShapeCasts ⟨3, ![16, 128, 1024]⟩)
    (b : Fin 16) (r : Fin 128) (l : Fin 1024) (k : Fin 131072) (hk : k.val = r.val * 1024 + l.val) :
    shapeCast ⟨3, ![16, 128, 1024]⟩ (shapeCast ⟨2, ![16, 131072]⟩ dep hd1) hd2 (ix3 b r l)
      = dep (ix3 b (0 : Fin 1) k) := by
  refine (shapeCast_apply _ hd2 (ix3 b r l) (ix2 b k) ?_).trans (shapeCast_apply dep hd1 (ix2 b k) (ix3 b (0 : Fin 1) k) ?_)
  · rw [Shape.rowMajor_val_two, Shape.rowMajor_val_three]
    show b.val * 131072 + k.val = (b.val * 128 + r.val) * 1024 + l.val
    omega
  · rw [Shape.rowMajor_val_three, Shape.rowMajor_val_two]
    show (b.val * 1 + 0) * 131072 + k.val = b.val * 131072 + k.val
    omega

/-- A result laid out in rows and lanes, joined back into columns: entry (b, c, k) is the entry (b, c, r, l) with
    k = r · 1024 + l. Both sit at position (b · 4 + c) · 131072 + k. -/
theorem joined_apply (v : FVec Ideal ⟨4, ![16, 4, 128, 1024]⟩ .f32)
    (ho : (⟨4, ![16, 4, 128, 1024]⟩ : Shape).ShapeCasts ⟨3, ![16, 4, 131072]⟩)
    (b : Fin 16) (c : Fin 4) (r : Fin 128) (l : Fin 1024) (k : Fin 131072) (hk : k.val = r.val * 1024 + l.val) :
    shapeCast ⟨3, ![16, 4, 131072]⟩ v ho (ix3 b c k) = v (ix4 b c r l) := by
  refine shapeCast_apply v ho _ _ ?_
  rw [Shape.rowMajor_val_four, Shape.rowMajor_val_three]
  show ((b.val * 4 + c.val) * 128 + r.val) * 1024 + l.val = (b.val * 4 + c.val) * 131072 + k.val
  omega

/-- Entry (b, c, k) of the joined result: column k is row k / 1024, lane k % 1024, and there the specification's own
    comparison of the two layouts applies, its two hypotheses being the readings of the cut inputs above. -/
theorem relaid_apply (inv : FVec Ideal ⟨3, ![16, 3, 3]⟩ .f32) (pix : FVec Ideal ⟨3, ![16, 3, 131072]⟩ .f32)
    (dep : FVec Ideal ⟨3, ![16, 1, 131072]⟩ .f32)
    (hp : (⟨3, ![16, 3, 131072]⟩ : Shape).ShapeCasts ⟨4, ![16, 3, 128, 1024]⟩)
    (hd1 : (⟨3, ![16, 1, 131072]⟩ : Shape).ShapeCasts ⟨2, ![16, 131072]⟩)
    (hd2 : (⟨2, ![16, 131072]⟩ : Shape).ShapeCasts ⟨3, ![16, 128, 1024]⟩)
    (ho : (⟨4, ![16, 4, 128, 1024]⟩ : Shape).ShapeCasts ⟨3, ![16, 4, 131072]⟩)
    (b : Fin 16) (c : Fin 4) (k : Fin 131072) :
    shapeCast ⟨3, ![16, 4, 131072]⟩
        (tiled inv (shapeCast ⟨4, ![16, 3, 128, 1024]⟩ pix hp)
          (shapeCast ⟨3, ![16, 128, 1024]⟩ (shapeCast ⟨2, ![16, 131072]⟩ dep hd1) hd2)) ho (ix3 b c k)
      = points inv pix dep (ix3 b c k) := by
  have hk := k.isLt
  have hr : k.val / 1024 < 128 := by omega
  have hl : k.val % 1024 < 1024 := Nat.mod_lt _ (by decide)
  have hkrl : k.val = (⟨k.val / 1024, hr⟩ : Fin 128).val * 1024 + (⟨k.val % 1024, hl⟩ : Fin 1024).val := by
    show k.val = k.val / 1024 * 1024 + k.val % 1024
    omega
  refine (joined_apply _ ho b c ⟨k.val / 1024, hr⟩ ⟨k.val % 1024, hl⟩ k hkrl).trans ?_
  exact tiled_eq_points inv pix dep _ _
    (fun b' j r l k' h => pix_cut_apply pix hp b' j r l k' h)
    (fun b' r l k' h => dep_cut_apply dep hd1 hd2 b' r l k' h)
    b c ⟨k.val / 1024, hr⟩ ⟨k.val % 1024, hl⟩ k hkrl

/-- The specification's `tiled` over the cut inputs, joined back into columns, is `points`: the two arrays agree at every
    index, an index being its three coordinates. -/
theorem relaid_eq_points (inv : FVec Ideal ⟨3, ![16, 3, 3]⟩ .f32) (pix : FVec Ideal ⟨3, ![16, 3, 131072]⟩ .f32)
    (dep : FVec Ideal ⟨3, ![16, 1, 131072]⟩ .f32)
    (hp : (⟨3, ![16, 3, 131072]⟩ : Shape).ShapeCasts ⟨4, ![16, 3, 128, 1024]⟩)
    (hd1 : (⟨3, ![16, 1, 131072]⟩ : Shape).ShapeCasts ⟨2, ![16, 131072]⟩)
    (hd2 : (⟨2, ![16, 131072]⟩ : Shape).ShapeCasts ⟨3, ![16, 128, 1024]⟩)
    (ho : (⟨4, ![16, 4, 128, 1024]⟩ : Shape).ShapeCasts ⟨3, ![16, 4, 131072]⟩) :
    shapeCast ⟨3, ![16, 4, 131072]⟩
        (tiled inv (shapeCast ⟨4, ![16, 3, 128, 1024]⟩ pix hp)
          (shapeCast ⟨3, ![16, 128, 1024]⟩ (shapeCast ⟨2, ![16, 131072]⟩ dep hd1) hd2)) ho
      = points inv pix dep := by
  funext i
  rw [eq_ix3 i]
  exact relaid_apply inv pix dep hp hd1 hd2 ho (i 0) (i 1) (i 2)

end Cert.Backproject.Relayout
-- ==== Proof.KernelRun.lean ====
/-
  The kernel's run, read: its result array is the specification's `points`.

  After the region the program joins the two short axes of the output array [16, 4, 128, 1024] back into the long one.
  The region leaves that array at `tiled` of the three arrays its windows stage (the array module); those are the
  selected pixel coordinates and depths with the long axis cut into rows, and the 3×3 corners (the entry module); and
  cutting an axis and joining it again moves nothing (the re-layout module). So the result is `points` of the corners,
  the selected pixel coordinates and the selected depths.
-/
import proofs.«149385_j18253611008840_2_alg».proof.Proof.KernelArray
import proofs.«149385_j18253611008840_2_alg».proof.Proof.KernelEntry
import proofs.«149385_j18253611008840_2_alg».proof.Proof.Relayout
import proofs.«149385_j18253611008840_2_alg».proof.Proof.Spec
import Idealize.ShloMosaic.Lib.StableHlo.Run

noncomputable section

namespace Cert.KernelIdeal.RunValue

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The one operation after the region: the result is the output array with its two short axes joined. -/
theorem tail_eq (c : Dev nD) :
    Pipeline.afterTail₀ cfgs (dats m) 0 (V0 m) [hostOps1] c main_v10
      = (shapeCast _ ((dats m 0 c).arrAt 3 cfg0.N) shapeCasts_S16x4x128x1024_S16x4x131072
          : (⟨S16x4x131072, .f32⟩ : BufTy).Contents (Elt Ideal)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = (dats m 0 c).arrAt 3 cfg0.N :=
    Pipeline.withArrays_arr spec0 launch0.win.arr_inj c (V0 m c) (fun w => (dats m 0 c).arrAt w cfg0.N) 3
  rw [e]
  rfl

/-- The program's result array is `points` of the corners, the selected pixel coordinates and the selected depths. -/
theorem value (c : Dev nD) :
    Pipeline.afterTail₀ cfgs (dats m) 0 (V0 m) [hostOps1] c main_v10
      = Cert.Backproject.points (Cert.ReferenceIdeal.RefRun.corner (F := Ideal) (m ((c : Thread nD τ).loc main_arg1)))
          (Cert.ReferenceIdeal.RefRun.pixSel (F := Ideal) (m ((c : Thread nD τ).loc main_arg2)) (m ((c : Thread nD τ).loc main_arg3)))
          (Cert.ReferenceIdeal.RefRun.depSel (F := Ideal) (m ((c : Thread nD τ).loc main_arg0)) (m ((c : Thread nD τ).loc main_arg3))) := by
  rw [tail_eq, ArrayValue.final]
  have e0 : V m c (Pipeline.arrRef spec0 0) = Cert.ReferenceIdeal.RefRun.corner (F := Ideal) (m ((c : Thread nD τ).loc main_arg1)) :=
    Entry.corner_entry (F := Ideal) m c
  have e1 : V m c (Pipeline.arrRef spec0 1)
      = (shapeCast _ (Cert.ReferenceIdeal.RefRun.pixSel (F := Ideal) (m ((c : Thread nD τ).loc main_arg2)) (m ((c : Thread nD τ).loc main_arg3)))
          shapeCasts_S16x3x131072_S16x3x128x1024 : (⟨S16x3x128x1024, .f32⟩ : BufTy).Contents (Elt Ideal)) :=
    Entry.pix_entry (F := Ideal) m c
  have e2 : V m c (Pipeline.arrRef spec0 2)
      = (shapeCast _ (shapeCast _ (Cert.ReferenceIdeal.RefRun.depSel (F := Ideal) (m ((c : Thread nD τ).loc main_arg0)) (m ((c : Thread nD τ).loc main_arg3)))
            shapeCasts_S16x1x131072_S16x131072 : (⟨S16x131072, .f32⟩ : BufTy).Contents (Elt Ideal))
          shapeCasts_S16x131072_S16x128x1024 : (⟨S16x128x1024, .f32⟩ : BufTy).Contents (Elt Ideal)) :=
    Entry.dep_entry (F := Ideal) m c
  rw [e0, e1, e2]
  exact Cert.Backproject.Relayout.relaid_eq_points _ _ _ _ _ _ _

/-- Every weakly fair execution of the kernel's program terminates with the result array at `points` of the corners, the
    selected pixel coordinates and the selected depths, and the argument arrays unchanged. -/
theorem run : θ_run defs (onTc (τ := τ) (main (F := Ideal))) ⟨m, fun _ => 0, ρ⟩ fun r => ∀ c : Dev nD,
      r.2.mem ((c : Thread nD τ).loc main_v10)
        = Cert.Backproject.points (Cert.ReferenceIdeal.RefRun.corner (F := Ideal) (m ((c : Thread nD τ).loc main_arg1)))
          (Cert.ReferenceIdeal.RefRun.pixSel (F := Ideal) (m ((c : Thread nD τ).loc main_arg2)) (m ((c : Thread nD τ).loc main_arg3)))
          (Cert.ReferenceIdeal.RefRun.depSel (F := Ideal) (m ((c : Thread nD τ).loc main_arg0)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v10 (Pipeline.mem_restRefs_of main_v10 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  Back-projection of selected pixels: the kernel against its reference, over the extended reals.

  Both programs gather, at the same indices, pixel coordinates `pix` (three per selected pixel) and depths `dep`, and
  take the 3×3 corners `inv` of sixteen 4×4 matrices. The reference forms the product `inv · pix` as one contraction,
  multiplies by the depth and joins a row of ones. The kernel cuts the 131072 selected pixels of each batch element
  into 128 rows of 1024, and per batch element forms `dep · ((inv[c,0]·p₀ + inv[c,1]·p₁) + inv[c,2]·p₂)` for c = 0, 1, 2
  with scalar factors, writes a fourth row of ones, and joins the rows back into the long axis.

  The contraction over three terms is, by definition, the first two terms added and then the third, which is the order
  the kernel adds in; the depth is the left factor on both sides; cutting an axis and joining it again moves no element.
  So the two results are one function, `Cert.Backproject.points`, of the same three arrays, and no law of arithmetic
  beyond that unfolding is used: the inputs need not be finite for the results to agree.

  The frames of the two kernel programs are the generated ones; the reference's frame is its run with the result
  dropped; the idealisation rewrote nothing, so `preserves` is trivial.
-/
import proofs.«149385_j18253611008840_2_alg».proof.Defs
import proofs.«149385_j18253611008840_2_alg».proof.Proof.Gen.Kernel
import proofs.«149385_j18253611008840_2_alg».proof.Proof.Gen.Kernel.Frame
import proofs.«149385_j18253611008840_2_alg».proof.Proof.Gen.KernelIdeal
import proofs.«149385_j18253611008840_2_alg».proof.Proof.Gen.KernelIdeal.Frame
import proofs.«149385_j18253611008840_2_alg».proof.Proof.Gen.ReferenceIdeal
import proofs.«149385_j18253611008840_2_alg».proof.Proof.Gen.Pre_finite_inputs
import proofs.«149385_j18253611008840_2_alg».proof.Proof.RefRun
import proofs.«149385_j18253611008840_2_alg».proof.Proof.ReferenceFormula
import proofs.«149385_j18253611008840_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result array at `points` of the corners, the selected pixel coordinates and the selected
    depths of arguments that agree. -/
theorem algebraic : Cert.algebraic_KernelIdeal_ReferenceIdeal := by
  intro m ρ m' ρ' _ hagree
  refine ⟨fun c => Cert.Backproject.points (Cert.ReferenceIdeal.RefRun.corner (F := Ideal) (m ((c.tc : Thread Cert.KernelIdeal.nD Cert.KernelIdeal.τ).loc Cert.KernelIdeal.main_arg1))) (Cert.ReferenceIdeal.RefRun.pixSel (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.RefRun.depSel (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))), Cert.KernelIdeal.RunValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.closing_eq_points _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
